-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x2x1600000 : Shape := ⟨3, ![2, 2, 1600000]⟩
abbrev S2x128x128 : Shape := ⟨3, ![2, 128, 128]⟩
abbrev S2x128 : Shape := ⟨2, ![2, 128]⟩
abbrev S2x1x128 : Shape := ⟨3, ![2, 1, 128]⟩
abbrev S2x1 : Shape := ⟨2, ![2, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S2x1x128 : S_.BroadcastsInDim S2x1x128 (![] : Fin 0 → Fin S2x1x128.rank)
  reducesTo_S2x1x128_S_d0_1_2 : S2x1x128.ReducesTo [0, 1, 2] S_
  bcast_S_S2x1 : S_.BroadcastsInDim S2x1 (![] : Fin 0 → Fin S2x1.rank)
  reducesTo_S2x1_S_d0_1 : S2x1.ReducesTo [0, 1] S_

variable [Facts]

def fn_part2 {F : FTy → Type} [FloatOps F] (main_arg9 : FVec F S2x1x128 .f32) (main_arg10 : FVec F S2x1 .f32) (main_v33 : IVec S_ 1) : IVec S_ 1 :=
  let main_v34 : FVec F S2x1x128 .f32 := Host.absf main_arg9
  let main_cst_12 : FVec F S_ .f32 := constant S_ .f32 0x7F800000#32
  let main_v35 : FVec F S2x1x128 .f32 := broadcastInDim S2x1x128 ![] bcast_S_S2x1x128 main_cst_12
  let main_v36 : IVec S2x1x128 1 := cmpf .olt main_v34 main_v35
  let main_c_13 : IVec S_ 1 := constantI S_ 1 1#1
  let main_v37 : IVec S_ 1 := (fun x v => Host.reduce IntOp.andi x v reducesTo_S2x1x128_S_d0_1_2 h_S_) main_v36 main_c_13
  let main_v38 : IVec S_ 1 := andi main_v33 main_v37
  let main_v39 : FVec F S2x1 .f32 := Host.absf main_arg10
  let main_cst_14 : FVec F S_ .f32 := constant S_ .f32 0x7F800000#32
  let main_v40 : FVec F S2x1 .f32 := broadcastInDim S2x1 ![] bcast_S_S2x1 main_cst_14
  let main_v41 : IVec S2x1 1 := cmpf .olt main_v39 main_v40
  let main_c_15 : IVec S_ 1 := constantI S_ 1 1#1
  let main_v42 : IVec S_ 1 := (fun x v => Host.reduce IntOp.andi x v reducesTo_S2x1_S_d0_1 h_S_) main_v41 main_c_15
  let main_v43 : IVec S_ 1 := andi main_v38 main_v42
  main_v43

def fn_part1 {F : FTy → Type} [FloatOps F] (main_arg6 : FVec F S2x128x128 .f32) (main_arg7 : FVec F S2x128 .f32) (main_arg8 : FVec F S2x128x128 .f32) (main_arg9 : FVec F S2x1x128 .f32) (main_arg10 : FVec F S2x1 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg6
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128x128 .f32 := Host.absf main_arg8
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S2x2x1600000 32) (main_arg3 : FVec F S2x128x128 .f32) (main_arg4 : FVec F S2x128 .f32) (main_arg5 : FVec F S2x128x128 .f32) (main_arg6 : FVec F S2x128x128 .f32) (main_arg7 : FVec F S2x128 .f32) (main_arg8 : FVec F S2x128x128 .f32) (main_arg9 : FVec F S2x1x128 .f32) (main_arg10 : FVec F S2x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128 .f32 := Host.absf main_arg4
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S2x2x1600000 : Shape := ⟨3, ![2, 2, 1600000]⟩
abbrev S2x128x128 : Shape := ⟨3, ![2, 128, 128]⟩
abbrev S2x128 : Shape := ⟨2, ![2, 128]⟩
abbrev S2x1x128 : Shape := ⟨3, ![2, 1, 128]⟩
abbrev S2x1 : Shape := ⟨2, ![2, 1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x1x1600000 : Shape := ⟨3, ![1, 1, 1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩
abbrev S1x1 : Shape := ⟨2, ![1, 1]⟩
abbrev S1 : Shape := ⟨1, ![1]⟩
abbrev S2000x128 : Shape := ⟨2, ![2000, 128]⟩
abbrev S2000x1 : Shape := ⟨2, ![2000, 1]⟩
abbrev S2000 : Shape := ⟨1, ![2000]⟩

abbrev nBuf : Space → Nat
  | .hbm => 145
  | .vmem => 44
  | .smem => 0
  | _ => 0

abbrev hbmTy0_0 (i : Nat) : BufTy := match i % 128 with
  | 0 => ⟨S100000x128, .f32⟩
  | 1 => ⟨S2x1600000, .i32⟩
  | 2 => ⟨S2x2x1600000, .i32⟩
  | 3 => ⟨S2x128x128, .f32⟩
  | 4 => ⟨S2x128, .f32⟩
  | 5 => ⟨S2x128x128, .f32⟩
  | 6 => ⟨S2x128x128, .f32⟩
  | 7 => ⟨S2x128, .f32⟩
  | 8 => ⟨S2x128x128, .f32⟩
  | 9 => ⟨S2x1x128, .f32⟩
  | 10 => ⟨S2x1, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S100000x1, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S1x1x1600000, .i32⟩
  | 36 => ⟨S1600000, .i32⟩
  | 37 => ⟨S1x1x1600000, .i32⟩
  | 38 => ⟨S1600000, .i32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x128, .f32⟩
  | 48 => ⟨S_, .f32⟩
  | 49 => ⟨S100000x128, .f32⟩
  | 50 => ⟨S1600000x1, .i32⟩
  | 51 => ⟨S100000x128, .f32⟩
  | 52 => ⟨S_, .f32⟩
  | 53 => ⟨S1600000, .f32⟩
  | 54 => ⟨S_, .f32⟩
  | 55 => ⟨S100000, .f32⟩
  | 56 => ⟨S1600000x1, .i32⟩
  | 57 => ⟨S100000, .f32⟩
  | 58 => ⟨S100000x1, .f32⟩
  | 59 => ⟨S1x1x1600000, .i32⟩
  | 60 => ⟨S1600000, .i32⟩
  | 61 => ⟨S1x1x1600000, .i32⟩
  | 62 => ⟨S1600000, .i32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S_, .f32⟩
  | 77 => ⟨S1600000, .f32⟩
  | 78 => ⟨S_, .f32⟩
  | 79 => ⟨S100000, .f32⟩
  | 80 => ⟨S1600000x1, .i32⟩
  | 81 => ⟨S100000, .f32⟩
  | 82 => ⟨S100000x1, .f32⟩
  | 83 => ⟨S1x128x128, .f32⟩
  | 84 => ⟨S128x128, .f32⟩
  | 85 => ⟨S128x128, .f32⟩
  | 86 => ⟨S1x128x128, .f32⟩
  | 87 => ⟨S128x128, .f32⟩
  | 88 => ⟨S128x128, .f32⟩
  | 89 => ⟨S1x128, .f32⟩
  | 90 => ⟨S128, .f32⟩
  | 91 => ⟨S1x128, .f32⟩
  | 92 => ⟨S1x128x128, .f32⟩
  | 93 => ⟨S128x128, .f32⟩
  | 94 => ⟨S128x128, .f32⟩
  | 95 => ⟨S1x128x128, .f32⟩
  | 96 => ⟨S128x128, .f32⟩
  | 97 => ⟨S128x128, .f32⟩
  | 98 => ⟨S1x128, .f32⟩
  | 99 => ⟨S128, .f32⟩
  | 100 => ⟨S1x128, .f32⟩
  | 101 => ⟨S1x128x128, .f32⟩
  | 102 => ⟨S128x128, .f32⟩
  | 103 => ⟨S128x128, .f32⟩
  | 104 => ⟨S1x128x128, .f32⟩
  | 105 => ⟨S128x128, .f32⟩
  | 106 => ⟨S128x128, .f32⟩
  | 107 => ⟨S1x128, .f32⟩
  | 108 => ⟨S128, .f32⟩
  | 109 => ⟨S1x128, .f32⟩
  | 110 => ⟨S1x1x128, .f32⟩
  | 111 => ⟨S1x128, .f32⟩
  | 112 => ⟨S1x1x128, .f32⟩
  | 113 => ⟨S1x128, .f32⟩
  | 114 => ⟨S1x1, .f32⟩
  | 115 => ⟨S1, .f32⟩
  | 116 => ⟨S1x1, .f32⟩
  | 117 => ⟨S1x1, .f32⟩
  | 118 => ⟨S1, .f32⟩
  | 119 => ⟨S1x1, .f32⟩
  | 120 => ⟨S100000x128, .f32⟩
  | 121 => ⟨S100000x128, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000x128, .f32⟩
  | 3 => ⟨S_, .f32⟩
  | 4 => ⟨S100000x128, .f32⟩
  | 5 => ⟨S1600000x1, .i32⟩
  | 6 => ⟨S100000x128, .f32⟩
  | 7 => ⟨S1x128x128, .f32⟩
  | 8 => ⟨S128x128, .f32⟩
  | 9 => ⟨S128x128, .f32⟩
  | 10 => ⟨S1x128x128, .f32⟩
  | 11 => ⟨S128x128, .f32⟩
  | 12 => ⟨S128x128, .f32⟩
  | 13 => ⟨S1x128, .f32⟩
  | 14 => ⟨S128, .f32⟩
  | 15 => ⟨S1x128, .f32⟩
  | 16 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S1x1, .f32⟩
  | .local _ .vmem, ⟨25, _⟩ => ⟨S1x128, .f32⟩
  | .local _ .vmem, ⟨26, _⟩ => ⟨S1x1, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x1, .f32⟩
  | .local _ .vmem, ⟨36, _⟩ => ⟨S2000x1, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94_0 : Ref sig .tc := ⟨.hbm, 120, rfl⟩
abbrev main_v94_1 : Ref sig .tc := ⟨.hbm, 121, rfl⟩
abbrev main_c_13 : Ref sig .tc := ⟨.hbm, 122, rfl⟩
abbrev main_v95 : Ref sig .tc := ⟨.hbm, 123, rfl⟩
abbrev main_v96 : Ref sig .tc := ⟨.hbm, 124, rfl⟩
abbrev main_c_14 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_15 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc1_stg0_0 : Ref sig .tc := ⟨.vmem, 31, rfl⟩
abbrev cc1_stg0_1 : Ref sig .tc := ⟨.vmem, 32, rfl⟩
abbrev cc1_stg1_0 : Ref sig .tc := ⟨.vmem, 33, rfl⟩
abbrev cc1_stg1_1 : Ref sig .tc := ⟨.vmem, 34, rfl⟩
abbrev cc1_stg2_0 : Ref sig .tc := ⟨.vmem, 35, rfl⟩
abbrev cc1_stg2_1 : Ref sig .tc := ⟨.vmem, 36, rfl⟩
abbrev cc1_stg3_0 : Ref sig .tc := ⟨.vmem, 37, rfl⟩
abbrev cc1_stg4_0 : Ref sig .tc := ⟨.vmem, 38, rfl⟩
abbrev cc1_stg5_0 : Ref sig .tc := ⟨.vmem, 39, rfl⟩
abbrev cc1_stg6_0 : Ref sig .tc := ⟨.vmem, 40, rfl⟩
abbrev cc1_stg6_1 : Ref sig .tc := ⟨.vmem, 41, rfl⟩
abbrev cc1_stg7_0 : Ref sig .tc := ⟨.vmem, 42, rfl⟩
abbrev cc1_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27
abbrev cc0_sem20_1 : DmaSem sig := 28
abbrev cc0_sem21_0 : DmaSem sig := 29
abbrev cc0_sem21_1 : DmaSem sig := 30
abbrev cc1_sem0_0 : DmaSem sig := 31
abbrev cc1_sem0_1 : DmaSem sig := 32
abbrev cc1_sem1_0 : DmaSem sig := 33
abbrev cc1_sem1_1 : DmaSem sig := 34
abbrev cc1_sem2_0 : DmaSem sig := 35
abbrev cc1_sem2_1 : DmaSem sig := 36
abbrev cc1_sem3_0 : DmaSem sig := 37
abbrev cc1_sem4_0 : DmaSem sig := 38
abbrev cc1_sem5_0 : DmaSem sig := 39
abbrev cc1_sem6_0 : DmaSem sig := 40
abbrev cc1_sem6_1 : DmaSem sig := 41
abbrev cc1_sem7_0 : DmaSem sig := 42
abbrev cc1_sem7_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S2000x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2000x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  slices_S2x2x1600000_S1x1x1600000_0_0_0 : S2x2x1600000.Slices ![0, 0, 0] S1x1x1600000
  shapeCasts_S1x1x1600000_S1600000 : S1x1x1600000.ShapeCasts S1600000
  slices_S2x2x1600000_S1x1x1600000_0_1_0 : S2x2x1600000.Slices ![0, 1, 0] S1x1x1600000
  slices_S2x2x1600000_S1x1x1600000_1_0_0 : S2x2x1600000.Slices ![1, 0, 0] S1x1x1600000
  slices_S2x2x1600000_S1x1x1600000_1_1_0 : S2x2x1600000.Slices ![1, 1, 0] S1x1x1600000
  slices_S2x128x128_S1x128x128_0_0_0 : S2x128x128.Slices ![0, 0, 0] S1x128x128
  shapeCasts_S1x128x128_S128x128 : S1x128x128.ShapeCasts S128x128
  transposes_S128x128_S128x128_1_0 : S128x128.Transposes [1, 0] S128x128
  slices_S2x128_S1x128_0_0 : S2x128.Slices ![0, 0] S1x128
  shapeCasts_S1x128_S128 : S1x128.ShapeCasts S128
  shapeCasts_S128_S1x128 : S128.ShapeCasts S1x128
  slices_S2x128x128_S1x128x128_1_0_0 : S2x128x128.Slices ![1, 0, 0] S1x128x128
  slices_S2x128_S1x128_1_0 : S2x128.Slices ![1, 0] S1x128
  slices_S2x1x128_S1x1x128_0_0_0 : S2x1x128.Slices ![0, 0, 0] S1x1x128
  shapeCasts_S1x1x128_S1x128 : S1x1x128.ShapeCasts S1x128
  slices_S2x1x128_S1x1x128_1_0_0 : S2x1x128.Slices ![1, 0, 0] S1x1x128
  slices_S2x1_S1x1_0_0 : S2x1.Slices ![0, 0] S1x1
  shapeCasts_S1x1_S1 : S1x1.ShapeCasts S1
  shapeCasts_S1_S1x1 : S1.ShapeCasts S1x1
  slices_S2x1_S1x1_1_0 : S2x1.Slices ![1, 0] S1x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S2000x128_S2000 : S2000x128.Reduces [1] S2000
  shapeCasts_S2000_S2000x1 : S2000.ShapeCasts S2000x1
  broadcasts_S1x1_S2000x1 : S1x1.Broadcasts S2000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S100000x1.size a
  hwx0_4 : ∀ i : grid0.Coords, EltTy.bits .f32 = 32 ∨ (Rect.block (s := S100000x1) S2000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S100000x1.size a
  hwx0_6 : ∀ i : grid0.Coords, EltTy.bits .f32 = 32 ∨ (Rect.block (s := S100000x1) S2000x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1.size a ≤ S1x1.size a
  hwx0_17 : ∀ i : grid0.Coords, EltTy.bits .f32 = 32 ∨ (Rect.block (s := S1x1) S1x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2000x128.size a ≤ S100000x128.size a
  hwx0_20 : ∀ i : grid0.Coords, EltTy.bits .f32 = 32 ∨ (Rect.block (s := S100000x128) S2000x128.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2000x128.size a ≤ S100000x128.size a
  hwx0_21 : ∀ i : grid0.Coords, EltTy.bits .f32 = 32 ∨ (Rect.block (s := S100000x128) S2000x128.size (cc0_transform_21 i) (hinb0_21 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v51) S2000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v56) S2000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v59) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v65) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v62) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v68) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v74) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v71) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v77) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v83) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v80) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v85) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v90) S1x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v87) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v93) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v94_0) S2000x128.size cc0_transform_20 reads0_20 true false 2 stage0_20 sem0_20
    hrank0 hreads0_20 hinb0_20 nbuf0_20 (Memref.isWhole_whole _) hwx0_20 hstage0_20

abbrev win0_21 : Pipeline.Window sig grid0 :=
  Pipeline.Window.ofSpec (Memref.whole main_v94_1) S2000x128.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

abbrev win1_0 : Pipeline.Window sig grid1 :=
  Pipeline.Window.ofSpec (Memref.whole main_v94_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v104) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v107) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v113) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v110) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v94_1) S2000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v114) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x2x1600000 : Shape := ⟨3, ![2, 2, 1600000]⟩
abbrev S2x128x128 : Shape := ⟨3, ![2, 128, 128]⟩
abbrev S2x128 : Shape := ⟨2, ![2, 128]⟩
abbrev S2x1x128 : Shape := ⟨3, ![2, 1, 128]⟩
abbrev S2x1 : Shape := ⟨2, ![2, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x2x1600000 : Shape := ⟨3, ![1, 2, 1600000]⟩
abbrev S1x1x128 : Shape := ⟨3, ![1, 1, 128]⟩
abbrev S128x1 : Shape := ⟨2, ![128, 1]⟩
abbrev S1x1 : Shape := ⟨2, ![1, 1]⟩
abbrev S1 : Shape := ⟨1, ![1]⟩
abbrev S100000x1x1 : Shape := ⟨3, ![100000, 1, 1]⟩
abbrev S100000x1x2 : Shape := ⟨3, ![100000, 1, 2]⟩

abbrev nBuf : Space → Nat
  | .hbm => 244
  | .vmem => 0
  | .smem => 0
  | _ => 0

abbrev hbmTy0_0 (i : Nat) : BufTy := match i % 128 with
  | 0 => ⟨S100000x128, .f32⟩
  | 1 => ⟨S2x1600000, .i32⟩
  | 2 => ⟨S2x2x1600000, .i32⟩
  | 3 => ⟨S2x128x128, .f32⟩
  | 4 => ⟨S2x128, .f32⟩
  | 5 => ⟨S2x128x128, .f32⟩
  | 6 => ⟨S2x128x128, .f32⟩
  | 7 => ⟨S2x128, .f32⟩
  | 8 => ⟨S2x128x128, .f32⟩
  | 9 => ⟨S2x1x128, .f32⟩
  | 10 => ⟨S2x1, .f32⟩
  | 11 => ⟨S1x128x128, .f32⟩
  | 12 => ⟨S128x128, .f32⟩
  | 13 => ⟨S1x128, .f32⟩
  | 14 => ⟨S128, .f32⟩
  | 15 => ⟨S1x128x128, .f32⟩
  | 16 => ⟨S128x128, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S_, .f32⟩
  | 35 => ⟨S1600000, .f32⟩
  | 36 => ⟨S_, .f32⟩
  | 37 => ⟨S100000, .f32⟩
  | 38 => ⟨S1600000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x128, .f32⟩
  | 45 => ⟨S100000x128, .f32⟩
  | 46 => ⟨S128x128, .f32⟩
  | 47 => ⟨S100000x128, .f32⟩
  | 48 => ⟨S1x128, .f32⟩
  | 49 => ⟨S100000x128, .f32⟩
  | 50 => ⟨S100000x128, .f32⟩
  | 51 => ⟨S128x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S1x128x128, .f32⟩
  | 58 => ⟨S128x128, .f32⟩
  | 59 => ⟨S1x128, .f32⟩
  | 60 => ⟨S128, .f32⟩
  | 61 => ⟨S1x128x128, .f32⟩
  | 62 => ⟨S128x128, .f32⟩
  | 63 => ⟨S1x1600000, .i32⟩
  | 64 => ⟨S1600000, .i32⟩
  | 65 => ⟨S1x1600000, .i32⟩
  | 66 => ⟨S1600000, .i32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S_, .f32⟩
  | 81 => ⟨S1600000, .f32⟩
  | 82 => ⟨S_, .f32⟩
  | 83 => ⟨S100000, .f32⟩
  | 84 => ⟨S1600000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S128x128, .f32⟩
  | 93 => ⟨S100000x128, .f32⟩
  | 94 => ⟨S1x128, .f32⟩
  | 95 => ⟨S100000x128, .f32⟩
  | 96 => ⟨S100000x128, .f32⟩
  | 97 => ⟨S128x128, .f32⟩
  | 98 => ⟨S100000x128, .f32⟩
  | 99 => ⟨S100000x128, .f32⟩
  | 100 => ⟨S1x2x1600000, .i32⟩
  | 101 => ⟨S2x1600000, .i32⟩
  | 102 => ⟨S1x128x128, .f32⟩
  | 103 => ⟨S128x128, .f32⟩
  | 104 => ⟨S1x128, .f32⟩
  | 105 => ⟨S128, .f32⟩
  | 106 => ⟨S1x128x128, .f32⟩
  | 107 => ⟨S128x128, .f32⟩
  | 108 => ⟨S1x1600000, .i32⟩
  | 109 => ⟨S1600000, .i32⟩
  | 110 => ⟨S1x1600000, .i32⟩
  | 111 => ⟨S1600000, .i32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S_, .f32⟩
  | 126 => ⟨S1600000, .f32⟩
  | 127 => ⟨S_, .f32⟩
  | _ => ⟨S100000x128, .f32⟩

abbrev hbmTy0_1 (i : Nat) : BufTy := match i % 128 with
  | 0 => ⟨S100000, .f32⟩
  | 1 => ⟨S1600000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x128, .f32⟩
  | 8 => ⟨S100000x128, .f32⟩
  | 9 => ⟨S128x128, .f32⟩
  | 10 => ⟨S100000x128, .f32⟩
  | 11 => ⟨S1x128, .f32⟩
  | 12 => ⟨S100000x128, .f32⟩
  | 13 => ⟨S100000x128, .f32⟩
  | 14 => ⟨S128x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S1x2x1600000, .i32⟩
  | 21 => ⟨S2x1600000, .i32⟩
  | 22 => ⟨S1x128x128, .f32⟩
  | 23 => ⟨S128x128, .f32⟩
  | 24 => ⟨S1x128, .f32⟩
  | 25 => ⟨S128, .f32⟩
  | 26 => ⟨S1x128x128, .f32⟩
  | 27 => ⟨S128x128, .f32⟩
  | 28 => ⟨S1x1600000, .i32⟩
  | 29 => ⟨S1600000, .i32⟩
  | 30 => ⟨S1x1600000, .i32⟩
  | 31 => ⟨S1600000, .i32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S100000x128, .f32⟩
  | 43 => ⟨S1600000x1, .i32⟩
  | 44 => ⟨S100000x128, .f32⟩
  | 45 => ⟨S_, .f32⟩
  | 46 => ⟨S1600000, .f32⟩
  | 47 => ⟨S_, .f32⟩
  | 48 => ⟨S100000, .f32⟩
  | 49 => ⟨S1600000x1, .i32⟩
  | 50 => ⟨S100000, .f32⟩
  | 51 => ⟨S_, .f32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S128x128, .f32⟩
  | 58 => ⟨S100000x128, .f32⟩
  | 59 => ⟨S1x128, .f32⟩
  | 60 => ⟨S100000x128, .f32⟩
  | 61 => ⟨S100000x128, .f32⟩
  | 62 => ⟨S128x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S1x1x128, .f32⟩
  | 69 => ⟨S1x128, .f32⟩
  | 70 => ⟨S128x1, .f32⟩
  | 71 => ⟨S100000x1, .f32⟩
  | 72 => ⟨S1x1, .f32⟩
  | 73 => ⟨S1, .f32⟩
  | 74 => ⟨S1x1, .f32⟩
  | 75 => ⟨S100000x1, .f32⟩
  | 76 => ⟨S100000x1, .f32⟩
  | 77 => ⟨S1x1x128, .f32⟩
  | 78 => ⟨S1x128, .f32⟩
  | 79 => ⟨S128x1, .f32⟩
  | 80 => ⟨S100000x1, .f32⟩
  | 81 => ⟨S1x1, .f32⟩
  | 82 => ⟨S1, .f32⟩
  | 83 => ⟨S1x1, .f32⟩
  | 84 => ⟨S100000x1, .f32⟩
  | 85 => ⟨S100000x1, .f32⟩
  | 86 => ⟨S100000x1x1, .f32⟩
  | 87 => ⟨S100000x1x1, .f32⟩
  | 88 => ⟨S100000x1x2, .f32⟩
  | 89 => ⟨S_, .f32⟩
  | 90 => ⟨S100000x1, .f32⟩
  | 91 => ⟨S_, .f32⟩
  | 92 => ⟨S100000x1, .f32⟩
  | 93 => ⟨S100000x1, .f32⟩
  | 94 => ⟨S100000x1x1, .f32⟩
  | 95 => ⟨S100000x1x2, .f32⟩
  | 96 => ⟨S100000x1x2, .f32⟩
  | 97 => ⟨S100000x1x2, .f32⟩
  | 98 => ⟨S_, .f32⟩
  | 99 => ⟨S100000x1, .f32⟩
  | 100 => ⟨S100000x1x1, .f32⟩
  | 101 => ⟨S100000x1x2, .f32⟩
  | 102 => ⟨S100000x1x2, .f32⟩
  | 103 => ⟨S100000x1x1, .f32⟩
  | 104 => ⟨S100000x1, .f32⟩
  | 105 => ⟨S100000x128, .f32⟩
  | 106 => ⟨S100000x128, .f32⟩
  | 107 => ⟨S100000x1x1, .f32⟩
  | 108 => ⟨S100000x1, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_4 : Ref sig .tc := ⟨.hbm, 67, rfl⟩
abbrev main_v48 : Ref sig .tc := ⟨.hbm, 68, rfl⟩
abbrev main_v49 : Ref sig .tc := ⟨.hbm, 69, rfl⟩
abbrev main_c_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_6 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_7 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_10 : Ref sig .tc := ⟨.hbm, 112, rfl⟩
abbrev main_v87 : Ref sig .tc := ⟨.hbm, 113, rfl⟩
abbrev main_v88 : Ref sig .tc := ⟨.hbm, 114, rfl⟩
abbrev main_c_11 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_12 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_13 : Ref sig .tc := ⟨.hbm, 125, rfl⟩
abbrev main_v97 : Ref sig .tc := ⟨.hbm, 126, rfl⟩
abbrev main_cst_14 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_15 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_call1_cst : Ref sig .tc := ⟨.hbm, 145, rfl⟩
abbrev main_call1_v0 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_16 : Ref sig .tc := ⟨.hbm, 160, rfl⟩
abbrev main_v127 : Ref sig .tc := ⟨.hbm, 161, rfl⟩
abbrev main_v128 : Ref sig .tc := ⟨.hbm, 162, rfl⟩
abbrev main_c_17 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_18 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_19 : Ref sig .tc := ⟨.hbm, 173, rfl⟩
abbrev main_v137 : Ref sig .tc := ⟨.hbm, 174, rfl⟩
abbrev main_cst_20 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_21 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_call2_cst : Ref sig .tc := ⟨.hbm, 193, rfl⟩
abbrev main_call2_v0 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_cst_22 : Ref sig .tc := ⟨.hbm, 217, rfl⟩
abbrev main_v176 : Ref sig .tc := ⟨.hbm, 218, rfl⟩
abbrev main_cst_23 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_cst_24 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_cst_25 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩

abbrev nD : Nat := 1
abbrev τ : Topo := Topo.v7x

variable {F : FTy → Type} [FloatOps F]

class Facts₀ : Prop where
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_1_0_0 : S2x128x128.Slices ![1, 0, 0] S1x128x128
  slices_S2x128_S1x128_1_0 : S2x128.Slices ![1, 0] S1x128
  slices_S2x2x1600000_S1x2x1600000_0_0_0 : S2x2x1600000.Slices ![0, 0, 0] S1x2x1600000
  shapeCasts_S1x2x1600000_S2x1600000 : S1x2x1600000.ShapeCasts S2x1600000
  slices_S2x2x1600000_S1x2x1600000_1_0_0 : S2x2x1600000.Slices ![1, 0, 0] S1x2x1600000
  slices_S2x1x128_S1x1x128_0_0_0 : S2x1x128.Slices ![0, 0, 0] S1x1x128
  shapeCasts_S1x1x128_S1x128 : S1x1x128.ShapeCasts S1x128
  transposes_S1x128_S128x1_1_0 : S1x128.Transposes [1, 0] S128x1
  slices_S2x1_S1x1_0_0 : S2x1.Slices ![0, 0] S1x1
  shapeCasts_S1x1_S1 : S1x1.ShapeCasts S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  slices_S2x1x128_S1x1x128_1_0_0 : S2x1x128.Slices ![1, 0, 0] S1x1x128
  slices_S2x1_S1x1_1_0 : S2x1.Slices ![1, 0] S1x1
  bcast_S100000x1_S100000x1x1_0_1 : S100000x1.BroadcastsInDim S100000x1x1 (![0, 1] : Fin 2 → Fin S100000x1x1.rank)
  concatenates_S100000x1x1_S100000x1x1_S100000x1x2_d2 : Shape.Concatenates [S100000x1x1, S100000x1x1] S100000x1x2 2
  reducesTo_S100000x1x2_S100000x1_d2 : S100000x1x2.ReducesTo [2] S100000x1
  h_S_ : 0 < S_.numel
  bcast_S_S100000x1 : S_.BroadcastsInDim S100000x1 (![] : Fin 0 → Fin S100000x1.rank)
  bcast_S100000x1x1_S100000x1x2_0_1_2 : S100000x1x1.BroadcastsInDim S100000x1x2 (![0, 1, 2] : Fin 3 → Fin S100000x1x2.rank)
  slices_S100000x1x2_S100000x1x1_0_0_0 : S100000x1x2.Slices ![0, 0, 0] S100000x1x1
  shapeCasts_S100000x1x1_S100000x1 : S100000x1x1.ShapeCasts S100000x1
  slices_S100000x1x2_S100000x1x1_0_0_1 : S100000x1x2.Slices ![0, 0, 1] S100000x1x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRun.lean ====
/-
  The idealized kernel's run, with the result array kept.

  The program is a stretch of host operations, the first kernel over its grid, a second stretch, and the second
  kernel over its grid. Every weakly fair execution terminates without a fault, and when it does every buffer that
  is not scoped to a kernel holds what the chain of those four stages leaves in it: the host stretches apply their
  operations to what they find, and each kernel leaves in its arrays what its grid points wrote back. Read at the
  result buffer this names the result; read at the arguments it says they are unchanged.
-/
import proofs.«150327_j27470610825587_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at what the second kernel's
    write-backs leave in it, and the argument arrays end as launched. -/
theorem run_result : θ_run defs (onTc (τ := τ) (main (F := F))) ⟨m, fun _ => 0, ρ⟩ (fun r => ∀ c : Dev nD,
      r.2.mem ((c.tc : Thread nD τ).loc main_v114) = W4 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v114 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Whole

end
-- ==== Proof.Spec.lean ====
/-
  The mathematics both programs compute, one entry at a time, over the extended reals.

  A graph convolution with mean aggregation gives node n, output feature j, the value
      (sum over k of (agg n k / max (cnt n) 1) * WlT k j) + bl j + (sum over k of x n k * WrT k j),
  where agg n is the sum of the features of n's in-neighbours, cnt n their number, and WlT, WrT the two weight
  matrices already transposed. Only row n of agg and of x enters, so the formula is stated for one row.

  Two branches o0, o1 (each a rectified convolution) are mixed per node by a two-way softmax of their scores: a score is
  the inner product of the branch's row with a gate vector plus a bias, and the weights are
  exp (s_i - max s0 s1) over the sum of the two exponentials.

  The word of the float 1 and the word of the float 0 are kept as words: the same word stands on both sides of every
  equation here, and only where a sum starts from the zero word or a product takes the one word is its value used.
-/
import Idealize.ShloMosaic.PureOps.Ideal
import Idealize.ShloMosaic.PureOps.Ideal.Laws
import Idealize.ShloMosaic.Lib.IdealHost
import Idealize.ShloMosaic.Lib.ValueIdx

noncomputable section

namespace Cert.GraphNet

open Idealize.ShloMosaic

/-- The float word of one, as an extended real. -/
abbrev one : EReal := Ideal.ofBits .f32 0x3F800000#32
/-- The float word of zero, as an extended real. -/
abbrev zero : EReal := Ideal.ofBits .f32 0x00000000#32
/-- The float word of minus infinity, as an extended real. -/
abbrev ninf : EReal := Ideal.ofBits .f32 0xFF800000#32

/-- One entry of a mean-aggregating graph convolution: row `agg` of the neighbour sums divided by the clamped
    neighbour count, times column j of the first weight matrix, plus the bias, plus row `x` times column j of the second. -/
def conv (agg x : Fin 128 → EReal) (cnt : EReal) (WlT WrT : Fin 128 → Fin 128 → EReal) (bl : Fin 128 → EReal)
    (j : Fin 128) : EReal :=
  (∑ k : Fin 128, Ideal.div (agg k) (max cnt one) * WlT k j) + bl j + ∑ k : Fin 128, x k * WrT k j

/-- A branch's gate score: its row against the gate vector, plus the gate bias. -/
def score (o gW : Fin 128 → EReal) (gb : EReal) : EReal := (∑ k : Fin 128, o k * gW k) + gb

/-- The two branches' entries mixed by the softmax of their two scores. -/
def gate (o0 o1 s0 s1 : EReal) : EReal :=
  o0 * Ideal.div (Ideal.exp (s0 - max s0 s1)) (Ideal.exp (s0 - max s0 s1) + Ideal.exp (s1 - max s0 s1))
    + o1 * Ideal.div (Ideal.exp (s1 - max s0 s1)) (Ideal.exp (s0 - max s0 s1) + Ideal.exp (s1 - max s0 s1))

/-- The word of minus infinity is the least extended real, so it is neutral for a maximum. -/
theorem ninf_max (a : EReal) : max ninf a = a := by
  show max (Ideal.ofBits .f32 0xFF800000#32) a = a
  simp [Ideal.ofBits, Ideal.ieee]

/-- The zero word is zero, so a sum may start from it. -/
theorem zero_add' (a : EReal) : zero + a = a := by
  show Ideal.ofBits .f32 0x00000000#32 + a = a
  rw [Ideal.ofBits_zero_f32, zero_add]

/-- The one word is one, so a product with it changes nothing. -/
theorem one_mul' (a : EReal) : one * a = a := by
  show Ideal.ofBits .f32 0x3F800000#32 * a = a
  rw [Ideal.ofBits_one_f32, one_mul]

end Cert.GraphNet

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibLayout.lean ====
/-
  Small layout facts read at one entry: a column broadcast along lanes, a vector viewed as a column or as a row,
  and a lane sum of a matrix as a plain sum over the lane coordinate.

  Each is stated for any extents, so it serves any block or array of that form.
-/
import Idealize.ShloMosaic.PureOps.Ideal.Laws
import Idealize.ShloMosaic.Lib.ValueIdx
import Idealize.ShloMosaic.Lib.Pipeline.Value
import Idealize.ShloMosaic.Lib.ValueLayout

noncomputable section

namespace Cert.LibLayout

open Idealize.ShloMosaic Idealize.ShloMosaic.ValueIdx

variable {α : Type}

/-- An [a, 1] column broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of a entries viewed as an [a, 1] column reads, at (p, 0), entry p. -/
theorem shapeCast_a_a1_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A vector of b entries viewed as a [1, b] row reads, at (0, c), entry c. -/
theorem shapeCast_b_1b_apply {b : ℕ} (v : (⟨1, ![b]⟩ : Shape).Idx → α)
    (h : (⟨1, ![b]⟩ : Shape).ShapeCasts ⟨2, ![1, b]⟩) (c : Fin b) :
    shapeCast ⟨2, ![1, b]⟩ v h (ix2 (0 : Fin 1) c) = v (ix1 c) := by
  refine shapeCast_apply v h (ix2 (0 : Fin 1) c) (ix1 c) ?_
  rw [Shape.rowMajor_val_one, Shape.rowMajor_val_two]
  show c.val = 0 * b + c.val
  omega

/-- The reduced index p of a lane reduction with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- Over the extended reals a lane sum of an [a, b] matrix started from the zero word reads, at row p, the plain
    sum of the row. -/
theorem laneSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] (⟨1, ![a]⟩ : Shape) src acc h hφ hacc (ix1 p) = ∑ k : Fin b, src (ix2 p k) := by
  rw [Ideal.multiReduction_add_single]
  exact Finset.sum_congr rfl fun k _ => congrArg src (lift_lane h p k)

end Cert.LibLayout

end
-- ==== Proof.KBody.lean ====
/-
  The kernels' arithmetic, one entry at a time.

  Each kernel body works on a block of 2000 rows. Its stores are pure functions of the blocks it loads; read at row p,
  column q over the extended reals (where a change of float format is the identity and a matrix product into a zero
  accumulator is a plain sum) they are the convolution formula of row p of the blocks: the neighbour sums divided by
  the clamped count against the first weight matrix, the bias row, and the node's own row against the second weight
  matrix. The first kernel rectifies that for the next layer's input, and mixes its two rectified tree branches by the
  softmax of their gate scores, each score a lane sum of the branch's row against the gate row plus the gate bias. The
  second kernel adds the mixed branches to the second layer's convolution.
-/
import proofs.«150327_j27470610825587_2_alg».proof.Proof.Gen.KernelIdeal.Skeleton
import proofs.«150327_j27470610825587_2_alg».proof.Proof.Spec
import proofs.«150327_j27470610825587_2_alg».proof.Proof.LibMatmul
import proofs.«150327_j27470610825587_2_alg».proof.Proof.LibLayout

set_option maxRecDepth 16384

noncomputable section

namespace Cert.KernelIdeal.Body

open Cert.KernelIdeal Cert.KernelIdeal.Gen Cert.GraphNet Cert.LibLayout Idealize.ShloMosaic Idealize.ShloMosaic.ValueIdx

/-! ## The matrix product's record: rows by contraction on the left, contraction by columns on the right -/

theorem dot_l0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot_l1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem dot_r0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem dot_r1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of 2000 rows times a 128 by 128 matrix into the zero accumulator, at (p, q): the sum over the 128 lanes. -/
theorem mm_at {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q) = ∑ k : Fin 128, l (ix2 p k) * r (ix2 k q) :=
  Cert.LibMatmul.matmul_zero_ix2 dot_S2000x128_S128x128_S2000x128_1_0_0_1_n_n rfl rfl dot_l0 dot_l1 dot_r0 dot_r1 none l r p q

/-- A lane sum of a block started from the zero word, at row p: the plain sum of the row. -/
theorem lane_at (v : FVec Ideal S2000x128 .f32) (hφ : FKind.Formats .f32) (hacc : (0x00000000#32 : BitVec 32) = 0x00000000#32)
    (p : Fin 2000) :
    multiReduction (F := Ideal) .add [1] S2000 v 0x00000000#32 reduces_S2000x128_S2000 hφ hacc (ix1 p) = ∑ k : Fin 128, v (ix2 p k) := by
  refine (Ideal.multiReduction_add_single v 0x00000000#32 reduces_S2000x128_S2000 hφ hacc (ix1 p)).trans ?_
  exact Finset.sum_congr rfl fun k _ => congrArg v (lift_lane reduces_S2000x128_S2000 p k)

theorem exp_apply {s : Shape} {φ : FTy} (a : FVec Ideal s φ) (i : s.Idx) : exp a i = Ideal.exp (a i) := rfl

/-! ## The first kernel -/

/-- The block cast for the matrix unit is the block. -/
theorem pay2_at (x : Vec Ideal S2000x128 .f32) (i : S2000x128.Idx) : k0_pay2 (F := Ideal) x i = x i := rfl

/-- The first layer's convolution, rectified, at row p and column q of the block. -/
theorem pay3_at (x : Vec Ideal S2000x128 .f32) (cnt : Vec Ideal S2000x1 .f32) (agg : Vec Ideal S2000x128 .f32)
    (Wl Wr : Vec Ideal S128x128 .f32) (bl : Vec Ideal S1x128 .f32) (p : Fin 2000) (q : Fin 128) :
    k0_pay3 (F := Ideal) x cnt agg Wl Wr bl (ix2 p q)
      = max (conv (fun k => agg (ix2 p k)) (fun k => x (ix2 p k)) (cnt (ix2 p (0 : Fin 1))) (fun k j => Wl (ix2 k j))
          (fun k j => Wr (ix2 k j)) (fun j => bl (ix2 (0 : Fin 1) j)) q) zero := by
  unfold k0_pay3 k0_pay2 conv
  simp only [shapeCast_self, maximumf_apply, addf_apply, mm_at, broadcastTo_1b_ab_apply, truncf_apply, divf_apply,
    broadcast_apply, broadcastTo_a1_ab_apply]
  rfl

/-- A tree branch's neighbour means: the sums over the clamped counts, at row p and lane k. -/
theorem pay4_at (cnt : Vec Ideal S2000x1 .f32) (agg : Vec Ideal S2000x128 .f32) (p : Fin 2000) (k : Fin 128) :
    k0_pay4 (F := Ideal) cnt agg (ix2 p k) = Ideal.div (agg (ix2 p k)) (max (cnt (ix2 p (0 : Fin 1))) one) := by
  unfold k0_pay4
  simp only [shapeCast_self, maximumf_apply, divf_apply, broadcast_apply, broadcastTo_a1_ab_apply]
  rfl

/-- The first tree branch from its neighbour means: the convolution's two products and bias, rectified. -/
theorem pay5_at (xb : FVec Ideal S2000x128 .bf16) (mean : FVec Ideal S2000x128 .f32) (Wl Wr : Vec Ideal S128x128 .f32)
    (bl : Vec Ideal S1x128 .f32) (p : Fin 2000) (q : Fin 128) :
    k0_pay5 (F := Ideal) xb mean Wl Wr bl (ix2 p q)
      = max ((∑ k : Fin 128, mean (ix2 p k) * Wl (ix2 k q)) + bl (ix2 (0 : Fin 1) q) + ∑ k : Fin 128, xb (ix2 p k) * Wr (ix2 k q)) zero := by
  unfold k0_pay5
  simp only [shapeCast_self, maximumf_apply, addf_apply, mm_at, broadcastTo_1b_ab_apply, truncf_apply, broadcast_apply]
  rfl

/-- The second tree branch before it is rectified: the convolution at row p and column q of the block. -/
theorem pay6_at (xb : FVec Ideal S2000x128 .bf16) (cnt : Vec Ideal S2000x1 .f32) (agg : Vec Ideal S2000x128 .f32)
    (Wl Wr : Vec Ideal S128x128 .f32) (bl : Vec Ideal S1x128 .f32) (p : Fin 2000) (q : Fin 128) :
    k0_pay6 (F := Ideal) xb cnt agg Wl Wr bl (ix2 p q)
      = conv (fun k => agg (ix2 p k)) (fun k => xb (ix2 p k)) (cnt (ix2 p (0 : Fin 1))) (fun k j => Wl (ix2 k j))
          (fun k j => Wr (ix2 k j)) (fun j => bl (ix2 (0 : Fin 1) j)) q := by
  unfold k0_pay6 conv
  simp only [shapeCast_self, maximumf_apply, addf_apply, mm_at, broadcastTo_1b_ab_apply, truncf_apply, divf_apply,
    broadcast_apply, broadcastTo_a1_ab_apply]
  rfl

/-- The mix of the two branches: the first as given, the second rectified here, by the softmax of their gate scores. -/
theorem pay1_at (o0 o1 : FVec Ideal S2000x128 .f32) (gW0 : Vec Ideal S1x128 .f32) (gb0 : Vec Ideal S1x1 .f32)
    (gW1 : Vec Ideal S1x128 .f32) (gb1 : Vec Ideal S1x1 .f32) (p : Fin 2000) (q : Fin 128) :
    k0_pay1 (F := Ideal) o0 o1 gW0 gb0 gW1 gb1 (ix2 p q)
      = gate (o0 (ix2 p q)) (max (o1 (ix2 p q)) zero)
          (score (fun k => o0 (ix2 p k)) (fun k => gW0 (ix2 (0 : Fin 1) k)) (gb0 (ix2 (0 : Fin 1) (0 : Fin 1))))
          (score (fun k => max (o1 (ix2 p k)) zero) (fun k => gW1 (ix2 (0 : Fin 1) k)) (gb1 (ix2 (0 : Fin 1) (0 : Fin 1)))) := by
  unfold k0_pay1 gate score
  simp only [shapeCast_self, maximumf_apply, addf_apply, subf_apply, mulf_apply, divf_apply, exp_apply, broadcast_apply,
    broadcastTo_1b_ab_apply, broadcastTo_a1_ab_apply, shapeCast_a_a1_apply]
  rw [lane_at, lane_at]
  simp only [maximumf_apply, mulf_apply, broadcast_apply, broadcastTo_1b_ab_apply]
  rfl

/-- The first kernel's second store: both tree branches' rectified convolutions of row p, mixed at column q by the
    softmax of the two gate scores of that row. -/
theorem tree_at (x : Vec Ideal S2000x128 .f32) (cnt0 : Vec Ideal S2000x1 .f32) (agg0 : Vec Ideal S2000x128 .f32)
    (Wl0 Wr0 : Vec Ideal S128x128 .f32) (bl0 : Vec Ideal S1x128 .f32) (cnt1 : Vec Ideal S2000x1 .f32)
    (agg1 : Vec Ideal S2000x128 .f32) (Wl1 Wr1 : Vec Ideal S128x128 .f32) (bl1 : Vec Ideal S1x128 .f32)
    (gW0 : Vec Ideal S1x128 .f32) (gb0 : Vec Ideal S1x1 .f32) (gW1 : Vec Ideal S1x128 .f32) (gb1 : Vec Ideal S1x1 .f32)
    (p : Fin 2000) (q : Fin 128) :
    k0_pay1 (F := Ideal) (k0_pay5 (k0_pay2 x) (k0_pay4 cnt0 agg0) Wl0 Wr0 bl0) (k0_pay6 (k0_pay2 x) cnt1 agg1 Wl1 Wr1 bl1)
        gW0 gb0 gW1 gb1 (ix2 p q)
      = gate
          (max (conv (fun k => agg0 (ix2 p k)) (fun k => x (ix2 p k)) (cnt0 (ix2 p (0 : Fin 1))) (fun k j => Wl0 (ix2 k j))
            (fun k j => Wr0 (ix2 k j)) (fun j => bl0 (ix2 (0 : Fin 1) j)) q) zero)
          (max (conv (fun k => agg1 (ix2 p k)) (fun k => x (ix2 p k)) (cnt1 (ix2 p (0 : Fin 1))) (fun k j => Wl1 (ix2 k j))
            (fun k j => Wr1 (ix2 k j)) (fun j => bl1 (ix2 (0 : Fin 1) j)) q) zero)
          (score (fun k' => max (conv (fun k => agg0 (ix2 p k)) (fun k => x (ix2 p k)) (cnt0 (ix2 p (0 : Fin 1)))
            (fun k j => Wl0 (ix2 k j)) (fun k j => Wr0 (ix2 k j)) (fun j => bl0 (ix2 (0 : Fin 1) j)) k') zero)
            (fun k => gW0 (ix2 (0 : Fin 1) k)) (gb0 (ix2 (0 : Fin 1) (0 : Fin 1))))
          (score (fun k' => max (conv (fun k => agg1 (ix2 p k)) (fun k => x (ix2 p k)) (cnt1 (ix2 p (0 : Fin 1)))
            (fun k j => Wl1 (ix2 k j)) (fun k j => Wr1 (ix2 k j)) (fun j => bl1 (ix2 (0 : Fin 1) j)) k') zero)
            (fun k => gW1 (ix2 (0 : Fin 1) k)) (gb1 (ix2 (0 : Fin 1) (0 : Fin 1)))) := by
  rw [pay1_at]
  simp only [pay5_at, pay6_at, pay4_at, pay2_at]
  rfl

/-! ## The second kernel -/

/-- The second layer's convolution plus the mixed tree branches, at row p and column q of the block. -/
theorem k1_pay1_at (x1 : Vec Ideal S2000x128 .f32) (cnt : Vec Ideal S2000x1 .f32) (agg : Vec Ideal S2000x128 .f32)
    (Wl Wr : Vec Ideal S128x128 .f32) (bl : Vec Ideal S1x128 .f32) (xt : Vec Ideal S2000x128 .f32) (p : Fin 2000) (q : Fin 128) :
    k1_pay1 (F := Ideal) x1 cnt agg Wl Wr bl xt (ix2 p q)
      = conv (fun k => agg (ix2 p k)) (fun k => x1 (ix2 p k)) (cnt (ix2 p (0 : Fin 1))) (fun k j => Wl (ix2 k j))
          (fun k j => Wr (ix2 k j)) (fun j => bl (ix2 (0 : Fin 1) j)) q + xt (ix2 p q) := by
  unfold k1_pay1 conv
  simp only [shapeCast_self, maximumf_apply, addf_apply, mm_at, broadcastTo_1b_ab_apply, truncf_apply, divf_apply,
    broadcast_apply, broadcastTo_a1_ab_apply]
  rfl

end Cert.KernelIdeal.Body

end
-- ==== Proof.KRegion0.lean ====
/-
  What the first kernel leaves in its two output arrays, each as one function of the arrays it finds.

  The first kernel's grid point t loads rows 2000 t … 2000 t + 1999 of the node features, of the three neighbour-sum
  arrays and of the three neighbour-count columns, and the nine weight matrices, bias rows and gate parameters
  whole. Its first store is the rectified first-layer convolution of each row; its second store mixes the two
  rectified tree-branch convolutions of the row by the softmax of their gate scores. Block t of each output is written
  back to rows 2000 t … of its array and the fifty blocks tile it, so each array ends as its formula of the arrays at
  every node and feature.
-/
import proofs.«150327_j27470610825587_2_alg».proof.Proof.Gen.KernelIdeal.Frame
import proofs.«150327_j27470610825587_2_alg».proof.Proof.KBody

set_option maxRecDepth 16384

noncomputable section

namespace Cert.KernelIdeal.Blocks0

open Cert.KernelIdeal Cert.KernelIdeal.Gen Cert.KernelIdeal.Body Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row p of the block of grid point t is row 2000 t + p of the array. -/
def row (t : Fin cfg0.N) (p : Fin 2000) : Fin 100000 :=
  ⟨t.val * 2000 + p.val, by have ht : t.val < 50 := t.isLt; have := p.isLt; omega⟩

/-! ## Where each window's block sits in its array

Along the node axis the grid point t takes rows 2000 t … 2000 t + 1999 of every per-node array; the weights, bias rows
and gate scalars are fetched whole at every point. -/

theorem idx0_0 : ∀ t : Fin cfg0.N, win0_0.index t (0 : Fin 2) = t.val ∧ win0_0.index t (1 : Fin 2) = 0 :=
  (by decide +kernel : ∀ t : Fin grid0.N, _)
theorem emb0_0 (t : Fin cfg0.N) (p : Fin 2000) (q : Fin 128) :
    ((cfg0.win 0).blk t).view.emb (ix2 p q) = ix2 (row t p) q := by
  funext a; apply Fin.ext
  obtain ⟨e0, e1⟩ := idx0_0 t
  match a with
  | ⟨0, _⟩ => show win0_0.index t (0 : Fin 2) * 2000 + 1 * p.val = t.val * 2000 + p.val; omega
  | ⟨1, _⟩ => show win0_0.index t (1 : Fin 2) * 128 + 1 * q.val = q.val; omega
theorem rd0_0 (c : Dev nD) (t : Fin cfg0.N) (p : Fin 2000) (q : Fin 128) :
    iblk0 V c 0 t (ix2 p q) = V c main_arg0 (ix2 (row t p) q) :=
  congrArg (V c main_arg0) (emb0_0 t p q)

theorem idx0_1 : ∀ t : Fin cfg0.N, win0_1.index t (0 : Fin 2) = t.val ∧ win0_1.index t (1 : Fin 2) = 0 :=
  (by decide +kernel : ∀ t : Fin grid0.N, _)
theorem emb0_1 (t : Fin cfg0.N) (p : Fin 2000) (q : Fin 128) :
    ((cfg0.win 1).blk t).view.emb (ix2 p q) = ix2 (row t p) q := by
  funext a; apply Fin.ext
  obtain ⟨e0, e1⟩ := idx0_1 t
  match a with
  | ⟨0, _⟩ => show win0_1.index t (0 : Fin 2) * 2000 + 1 * p.val = t.val * 2000 + p.val; omega
  | ⟨1, _⟩ => show win0_1.index t (1 : Fin 2) * 128 + 1 * q.val = q.val; omega
theorem rd0_1 (c : Dev nD) (t : Fin cfg0.N) (p : Fin 2000) (q : Fin 128) :
    iblk0 V c 1 t (ix2 p q) = V c main_v18 (ix2 (row t p) q) :=
  congrArg (V c main_v18) (emb0_1 t p q)

theorem idx0_2 : ∀ t : Fin cfg0.N, win0_2.index t (0 : Fin 2) = t.val ∧ win0_2.index t (1 : Fin 2) = 0 :=
  (by decide +kernel : ∀ t : Fin grid0.N, _)
theorem emb0_2 (t : Fin cfg0.N) (p : Fin 2000) :
    ((cfg0.win 2).blk t).view.emb (ix2 p (0 : Fin 1)) = ix2 (row t p) (0 : Fin 1) := by
  funext a; apply Fin.ext
  obtain ⟨e0, e1⟩ := idx0_2 t
  match a with
  | ⟨0, _⟩ => show win0_2.index t (0 : Fin 2) * 2000 + 1 * p.val = t.val * 2000 + p.val; omega
  | ⟨1, _⟩ => show win0_2.index t (1 : Fin 2) * 1 + 1 * 0 = 0; omega
theorem rd0_2 (c : Dev nD) (t : Fin cfg0.N) (p : Fin 2000) :
    iblk0 V c 2 t (ix2 p (0 : Fin 1)) = V c main_v8 (ix2 (row t p) (0 : Fin 1)) :=
  congrArg (V c main_v8) (emb0_2 t p)

theorem idx0_3 : ∀ t : Fin cfg0.N, win0_3.index t (0 : Fin 2) = t.val ∧ win0_3.index t (1 : Fin 2) = 0 :=
  (by decide +kernel : ∀ t : Fin grid0.N, _)
theorem emb0_3 (t : Fin cfg0.N) (p : Fin 2000) (q : Fin 128) :
    ((cfg0.win 3).blk t).view.emb (ix2 p q) = ix2 (row t p) q := by
  funext a; apply Fin.ext
  obtain ⟨e0, e1⟩ := idx0_3 t
  match a with
  | ⟨0, _⟩ => show win0_3.index t (0 : Fin 2) * 2000 + 1 * p.val = t.val * 2000 + p.val; omega
  | ⟨1, _⟩ => show win0_3.index t (1 : Fin 2) * 128 + 1 * q.val = q.val; omega
theorem rd0_3 (c : Dev nD) (t : Fin cfg0.N) (p : Fin 2000) (q : Fin 128) :
    iblk0 V c 3 t (ix2 p q) = V c main_v32 (ix2 (row t p) q) :=
  congrArg (V c main_v32) (emb0_3 t p q)

theorem idx0_4 : ∀ t : Fin cfg0.N, win0_4.index t (0 : Fin 2) = t.val ∧ win0_4.index t (1 : Fin 2) = 0 :=
  (by decide +kernel : ∀ t : Fin grid0.N, _)
theorem emb0_4 (t : Fin cfg0.N) (p : Fin 2000) :
    ((cfg0.win 4).blk t).view.emb (ix2 p (0 : Fin 1)) = ix2 (row t p) (0 : Fin 1) := by
  funext a; apply Fin.ext
  obtain ⟨e0, e1⟩ := idx0_4 t
  match a with
  | ⟨0, _⟩ => show win0_4.index t (0 : Fin 2) * 2000 + 1 * p.val = t.val * 2000 + p.val; omega
  | ⟨1, _⟩ => show win0_4.index t (1 : Fin 2) * 1 + 1 * 0 = 0; omega
theorem rd0_4 (c : Dev nD) (t : Fin cfg0.N) (p : Fin 2000) :
    iblk0 V c 4 t (ix2 p (0 : Fin 1)) = V c main_v37 (ix2 (row t p) (0 : Fin 1)) :=
  congrArg (V c main_v37) (emb0_4 t p)

theorem idx0_5 : ∀ t : Fin cfg0.N, win0_5.index t (0 : Fin 2) = t.val ∧ win0_5.index t (1 : Fin 2) = 0 :=
  (by decide +kernel : ∀ t : Fin grid0.N, _)
theorem emb0_5 (t : Fin cfg0.N) (p : Fin 2000) (q : Fin 128) :
    ((cfg0.win 5).blk t).view.emb (ix2 p q) = ix2 (row t p) q := by
  funext a; apply Fin.ext
  obtain ⟨e0, e1⟩ := idx0_5 t
  match a with
  | ⟨0, _⟩ => show win0_5.index t (0 : Fin 2) * 2000 + 1 * p.val = t.val * 2000 + p.val; omega
  | ⟨1, _⟩ => show win0_5.index t (1 : Fin 2) * 128 + 1 * q.val = q.val; omega
theorem rd0_5 (c : Dev nD) (t : Fin cfg0.N) (p : Fin 2000) (q : Fin 128) :
    iblk0 V c 5 t (ix2 p q) = V c main_v51 (ix2 (row t p) q) :=
  congrArg (V c main_v51) (emb0_5 t p q)

theorem idx0_6 : ∀ t : Fin cfg0.N, win0_6.index t (0 : Fin 2) = t.val ∧ win0_6.index t (1 : Fin 2) = 0 :=
  (by decide +kernel : ∀ t : Fin grid0.N, _)
theorem emb0_6 (t : Fin cfg0.N) (p : Fin 2000) :
    ((cfg0.win 6).blk t).view.emb (ix2 p (0 : Fin 1)) = ix2 (row t p) (0 : Fin 1) := by
  funext a; apply Fin.ext
  obtain ⟨e0, e1⟩ := idx0_6 t
  match a with
  | ⟨0, _⟩ => show win0_6.index t (0 : Fin 2) * 2000 + 1 * p.val = t.val * 2000 + p.val; omega
  | ⟨1, _⟩ => show win0_6.index t (1 : Fin 2) * 1 + 1 * 0 = 0; omega
theorem rd0_6 (c : Dev nD) (t : Fin cfg0.N) (p : Fin 2000) :
    iblk0 V c 6 t (ix2 p (0 : Fin 1)) = V c main_v56 (ix2 (row t p) (0 : Fin 1)) :=
  congrArg (V c main_v56) (emb0_6 t p)

theorem idx0_7 : ∀ t : Fin cfg0.N, win0_7.index t (0 : Fin 2) = 0 ∧ win0_7.index t (1 : Fin 2) = 0 :=
  (by decide +kernel : ∀ t : Fin grid0.N, _)
theorem emb0_7 (t : Fin cfg0.N) (p : Fin 128) (q : Fin 128) :
    ((cfg0.win 7).blk t).view.emb (ix2 p q) = ix2 p q := by
  funext a; apply Fin.ext
  obtain ⟨e0, e1⟩ := idx0_7 t
  match a with
  | ⟨0, _⟩ => show win0_7.index t (0 : Fin 2) * 128 + 1 * p.val = p.val; omega
  | ⟨1, _⟩ => show win0_7.index t (1 : Fin 2) * 128 + 1 * q.val = q.val; omega
theorem rd0_7 (c : Dev nD) (t : Fin cfg0.N) (p : Fin 128) (q : Fin 128) :
    iblk0 V c 7 t (ix2 p q) = V c main_v59 (ix2 p q) :=
  congrArg (V c main_v59) (emb0_7 t p q)

theorem idx0_8 : ∀ t : Fin cfg0.N, win0_8.index t (0 : Fin 2) = 0 ∧ win0_8.index t (1 : Fin 2) = 0 :=
  (by decide +kernel : ∀ t : Fin grid0.N, _)
theorem emb0_8 (t : Fin cfg0.N) (q : Fin 128) :
    ((cfg0.win 8).blk t).view.emb (ix2 (0 : Fin 1) q) = ix2 (0 : Fin 1) q := by
  funext a; apply Fin.ext
  obtain ⟨e0, e1⟩ := idx0_8 t
  match a with
  | ⟨0, _⟩ => show win0_8.index t (0 : Fin 2) * 1 + 1 * 0 = 0; omega
  | ⟨1, _⟩ => show win0_8.index t (1 : Fin 2) * 128 + 1 * q.val = q.val; omega
theorem rd0_8 (c : Dev nD) (t : Fin cfg0.N) (q : Fin 128) :
    iblk0 V c 8 t (ix2 (0 : Fin 1) q) = V c main_v65 (ix2 (0 : Fin 1) q) :=
  congrArg (V c main_v65) (emb0_8 t q)

theorem idx0_9 : ∀ t : Fin cfg0.N, win0_9.index t (0 : Fin 2) = 0 ∧ win0_9.index t (1 : Fin 2) = 0 :=
  (by decide +kernel : ∀ t : Fin grid0.N, _)
theorem emb0_9 (t : Fin cfg0.N) (p : Fin 128) (q : Fin 128) :
    ((cfg0.win 9).blk t).view.emb (ix2 p q) = ix2 p q := by
  funext a; apply Fin.ext
  obtain ⟨e0, e1⟩ := idx0_9 t
  match a with
  | ⟨0, _⟩ => show win0_9.index t (0 : Fin 2) * 128 + 1 * p.val = p.val; omega
  | ⟨1, _⟩ => show win0_9.index t (1 : Fin 2) * 128 + 1 * q.val = q.val; omega
theorem rd0_9 (c : Dev nD) (t : Fin cfg0.N) (p : Fin 128) (q : Fin 128) :
    iblk0 V c 9 t (ix2 p q) = V c main_v62 (ix2 p q) :=
  congrArg (V c main_v62) (emb0_9 t p q)

theorem idx0_10 : ∀ t : Fin cfg0.N, win0_10.index t (0 : Fin 2) = 0 ∧ win0_10.index t (1 : Fin 2) = 0 :=
  (by decide +kernel : ∀ t : Fin grid0.N, _)
theorem emb0_10 (t : Fin cfg0.N) (p : Fin 128) (q : Fin 128) :
    ((cfg0.win 10).blk t).view.emb (ix2 p q) = ix2 p q := by
  funext a; apply Fin.ext
  obtain ⟨e0, e1⟩ := idx0_10 t
  match a with
  | ⟨0, _⟩ => show win0_10.index t (0 : Fin 2) * 128 + 1 * p.val = p.val; omega
  | ⟨1, _⟩ => show win0_10.index t (1 : Fin 2) * 128 + 1 * q.val = q.val; omega
theorem rd0_10 (c : Dev nD) (t : Fin cfg0.N) (p : Fin 128) (q : Fin 128) :
    iblk0 V c 10 t (ix2 p q) = V c main_v68 (ix2 p q) :=
  congrArg (V c main_v68) (emb0_10 t p q)

theorem idx0_11 : ∀ t : Fin cfg0.N, win0_11.index t (0 : Fin 2) = 0 ∧ win0_11.index t (1 : Fin 2) = 0 :=
  (by decide +kernel : ∀ t : Fin grid0.N, _)
theorem emb0_11 (t : Fin cfg0.N) (q : Fin 128) :
    ((cfg0.win 11).blk t).view.emb (ix2 (0 : Fin 1) q) = ix2 (0 : Fin 1) q := by
  funext a; apply Fin.ext
  obtain ⟨e0, e1⟩ := idx0_11 t
  match a with
  | ⟨0, _⟩ => show win0_11.index t (0 : Fin 2) * 1 + 1 * 0 = 0; omega
  | ⟨1, _⟩ => show win0_11.index t (1 : Fin 2) * 128 + 1 * q.val = q.val; omega
theorem rd0_11 (c : Dev nD) (t : Fin cfg0.N) (q : Fin 128) :
    iblk0 V c 11 t (ix2 (0 : Fin 1) q) = V c main_v74 (ix2 (0 : Fin 1) q) :=
  congrArg (V c main_v74) (emb0_11 t q)

theorem idx0_12 : ∀ t : Fin cfg0.N, win0_12.index t (0 : Fin 2) = 0 ∧ win0_12.index t (1 : Fin 2) = 0 :=
  (by decide +kernel : ∀ t : Fin grid0.N, _)
theorem emb0_12 (t : Fin cfg0.N) (p : Fin 128) (q : Fin 128) :
    ((cfg0.win 12).blk t).view.emb (ix2 p q) = ix2 p q := by
  funext a; apply Fin.ext
  obtain ⟨e0, e1⟩ := idx0_12 t
  match a with
  | ⟨0, _⟩ => show win0_12.index t (0 : Fin 2) * 128 + 1 * p.val = p.val; omega
  | ⟨1, _⟩ => show win0_12.index t (1 : Fin 2) * 128 + 1 * q.val = q.val; omega
theorem rd0_12 (c : Dev nD) (t : Fin cfg0.N) (p : Fin 128) (q : Fin 128) :
    iblk0 V c 12 t (ix2 p q) = V c main_v71 (ix2 p q) :=
  congrArg (V c main_v71) (emb0_12 t p q)

theorem idx0_13 : ∀ t : Fin cfg0.N, win0_13.index t (0 : Fin 2) = 0 ∧ win0_13.index t (1 : Fin 2) = 0 :=
  (by decide +kernel : ∀ t : Fin grid0.N, _)
theorem emb0_13 (t : Fin cfg0.N) (p : Fin 128) (q : Fin 128) :
    ((cfg0.win 13).blk t).view.emb (ix2 p q) = ix2 p q := by
  funext a; apply Fin.ext
  obtain ⟨e0, e1⟩ := idx0_13 t
  match a with
  | ⟨0, _⟩ => show win0_13.index t (0 : Fin 2) * 128 + 1 * p.val = p.val; omega
  | ⟨1, _⟩ => show win0_13.index t (1 : Fin 2) * 128 + 1 * q.val = q.val; omega
theorem rd0_13 (c : Dev nD) (t : Fin cfg0.N) (p : Fin 128) (q : Fin 128) :
    iblk0 V c 13 t (ix2 p q) = V c main_v77 (ix2 p q) :=
  congrArg (V c main_v77) (emb0_13 t p q)

theorem idx0_14 : ∀ t : Fin cfg0.N, win0_14.index t (0 : Fin 2) = 0 ∧ win0_14.index t (1 : Fin 2) = 0 :=
  (by decide +kernel : ∀ t : Fin grid0.N, _)
theorem emb0_14 (t : Fin cfg0.N) (q : Fin 128) :
    ((cfg0.win 14).blk t).view.emb (ix2 (0 : Fin 1) q) = ix2 (0 : Fin 1) q := by
  funext a; apply Fin.ext
  obtain ⟨e0, e1⟩ := idx0_14 t
  match a with
  | ⟨0, _⟩ => show win0_14.index t (0 : Fin 2) * 1 + 1 * 0 = 0; omega
  | ⟨1, _⟩ => show win0_14.index t (1 : Fin 2) * 128 + 1 * q.val = q.val; omega
theorem rd0_14 (c : Dev nD) (t : Fin cfg0.N) (q : Fin 128) :
    iblk0 V c 14 t (ix2 (0 : Fin 1) q) = V c main_v83 (ix2 (0 : Fin 1) q) :=
  congrArg (V c main_v83) (emb0_14 t q)

theorem idx0_15 : ∀ t : Fin cfg0.N, win0_15.index t (0 : Fin 2) = 0 ∧ win0_15.index t (1 : Fin 2) = 0 :=
  (by decide +kernel : ∀ t : Fin grid0.N, _)
theorem emb0_15 (t : Fin cfg0.N) (p : Fin 128) (q : Fin 128) :
    ((cfg0.win 15).blk t).view.emb (ix2 p q) = ix2 p q := by
  funext a; apply Fin.ext
  obtain ⟨e0, e1⟩ := idx0_15 t
  match a with
  | ⟨0, _⟩ => show win0_15.index t (0 : Fin 2) * 128 + 1 * p.val = p.val; omega
  | ⟨1, _⟩ => show win0_15.index t (1 : Fin 2) * 128 + 1 * q.val = q.val; omega
theorem rd0_15 (c : Dev nD) (t : Fin cfg0.N) (p : Fin 128) (q : Fin 128) :
    iblk0 V c 15 t (ix2 p q) = V c main_v80 (ix2 p q) :=
  congrArg (V c main_v80) (emb0_15 t p q)

theorem idx0_16 : ∀ t : Fin cfg0.N, win0_16.index t (0 : Fin 2) = 0 ∧ win0_16.index t (1 : Fin 2) = 0 :=
  (by decide +kernel : ∀ t : Fin grid0.N, _)
theorem emb0_16 (t : Fin cfg0.N) (q : Fin 128) :
    ((cfg0.win 16).blk t).view.emb (ix2 (0 : Fin 1) q) = ix2 (0 : Fin 1) q := by
  funext a; apply Fin.ext
  obtain ⟨e0, e1⟩ := idx0_16 t
  match a with
  | ⟨0, _⟩ => show win0_16.index t (0 : Fin 2) * 1 + 1 * 0 = 0; omega
  | ⟨1, _⟩ => show win0_16.index t (1 : Fin 2) * 128 + 1 * q.val = q.val; omega
theorem rd0_16 (c : Dev nD) (t : Fin cfg0.N) (q : Fin 128) :
    iblk0 V c 16 t (ix2 (0 : Fin 1) q) = V c main_v85 (ix2 (0 : Fin 1) q) :=
  congrArg (V c main_v85) (emb0_16 t q)

theorem idx0_17 : ∀ t : Fin cfg0.N, win0_17.index t (0 : Fin 2) = 0 ∧ win0_17.index t (1 : Fin 2) = 0 :=
  (by decide +kernel : ∀ t : Fin grid0.N, _)
theorem emb0_17 (t : Fin cfg0.N) :
    ((cfg0.win 17).blk t).view.emb (ix2 (0 : Fin 1) (0 : Fin 1)) = ix2 (0 : Fin 1) (0 : Fin 1) := by
  funext a; apply Fin.ext
  obtain ⟨e0, e1⟩ := idx0_17 t
  match a with
  | ⟨0, _⟩ => show win0_17.index t (0 : Fin 2) * 1 + 1 * 0 = 0; omega
  | ⟨1, _⟩ => show win0_17.index t (1 : Fin 2) * 1 + 1 * 0 = 0; omega
theorem rd0_17 (c : Dev nD) (t : Fin cfg0.N) :
    iblk0 V c 17 t (ix2 (0 : Fin 1) (0 : Fin 1)) = V c main_v90 (ix2 (0 : Fin 1) (0 : Fin 1)) :=
  congrArg (V c main_v90) (emb0_17 t)

theorem idx0_18 : ∀ t : Fin cfg0.N, win0_18.index t (0 : Fin 2) = 0 ∧ win0_18.index t (1 : Fin 2) = 0 :=
  (by decide +kernel : ∀ t : Fin grid0.N, _)
theorem emb0_18 (t : Fin cfg0.N) (q : Fin 128) :
    ((cfg0.win 18).blk t).view.emb (ix2 (0 : Fin 1) q) = ix2 (0 : Fin 1) q := by
  funext a; apply Fin.ext
  obtain ⟨e0, e1⟩ := idx0_18 t
  match a with
  | ⟨0, _⟩ => show win0_18.index t (0 : Fin 2) * 1 + 1 * 0 = 0; omega
  | ⟨1, _⟩ => show win0_18.index t (1 : Fin 2) * 128 + 1 * q.val = q.val; omega
theorem rd0_18 (c : Dev nD) (t : Fin cfg0.N) (q : Fin 128) :
    iblk0 V c 18 t (ix2 (0 : Fin 1) q) = V c main_v87 (ix2 (0 : Fin 1) q) :=
  congrArg (V c main_v87) (emb0_18 t q)

theorem idx0_19 : ∀ t : Fin cfg0.N, win0_19.index t (0 : Fin 2) = 0 ∧ win0_19.index t (1 : Fin 2) = 0 :=
  (by decide +kernel : ∀ t : Fin grid0.N, _)
theorem emb0_19 (t : Fin cfg0.N) :
    ((cfg0.win 19).blk t).view.emb (ix2 (0 : Fin 1) (0 : Fin 1)) = ix2 (0 : Fin 1) (0 : Fin 1) := by
  funext a; apply Fin.ext
  obtain ⟨e0, e1⟩ := idx0_19 t
  match a with
  | ⟨0, _⟩ => show win0_19.index t (0 : Fin 2) * 1 + 1 * 0 = 0; omega
  | ⟨1, _⟩ => show win0_19.index t (1 : Fin 2) * 1 + 1 * 0 = 0; omega
theorem rd0_19 (c : Dev nD) (t : Fin cfg0.N) :
    iblk0 V c 19 t (ix2 (0 : Fin 1) (0 : Fin 1)) = V c main_v93 (ix2 (0 : Fin 1) (0 : Fin 1)) :=
  congrArg (V c main_v93) (emb0_19 t)

theorem idx0_20 : ∀ t : Fin cfg0.N, win0_20.index t (0 : Fin 2) = t.val ∧ win0_20.index t (1 : Fin 2) = 0 :=
  (by decide +kernel : ∀ t : Fin grid0.N, _)
theorem emb0_20 (t : Fin cfg0.N) (p : Fin 2000) (q : Fin 128) :
    ((cfg0.win 20).blk t).view.emb (ix2 p q) = ix2 (row t p) q := by
  funext a; apply Fin.ext
  obtain ⟨e0, e1⟩ := idx0_20 t
  match a with
  | ⟨0, _⟩ => show win0_20.index t (0 : Fin 2) * 2000 + 1 * p.val = t.val * 2000 + p.val; omega
  | ⟨1, _⟩ => show win0_20.index t (1 : Fin 2) * 128 + 1 * q.val = q.val; omega

theorem idx0_21 : ∀ t : Fin cfg0.N, win0_21.index t (0 : Fin 2) = t.val ∧ win0_21.index t (1 : Fin 2) = 0 :=
  (by decide +kernel : ∀ t : Fin grid0.N, _)
theorem emb0_21 (t : Fin cfg0.N) (p : Fin 2000) (q : Fin 128) :
    ((cfg0.win 21).blk t).view.emb (ix2 p q) = ix2 (row t p) q := by
  funext a; apply Fin.ext
  obtain ⟨e0, e1⟩ := idx0_21 t
  match a with
  | ⟨0, _⟩ => show win0_21.index t (0 : Fin 2) * 2000 + 1 * p.val = t.val * 2000 + p.val; omega
  | ⟨1, _⟩ => show win0_21.index t (1 : Fin 2) * 128 + 1 * q.val = q.val; omega

/-! ## The first output: the next layer's input -/

/-- The rectified first-layer convolution of node n, from the arrays the kernel finds. -/
def x1At (c : Dev nD) (n : Fin 100000) (j : Fin 128) : EReal :=
  max (conv (fun k => V c main_v18 (ix2 n k)) (fun k => V c main_arg0 (ix2 n k)) (V c main_v8 (ix2 n (0 : Fin 1)))
      (fun k j' => V c main_v59 (ix2 k j')) (fun k j' => V c main_v62 (ix2 k j')) (fun j' => V c main_v65 (ix2 (0 : Fin 1) j')) j) zero

/-- The same, as an array. -/
def x1 (c : Dev nD) : S100000x128.Idx → EReal := fun i => x1At V c ⟨(i 0).val, (i 0).isLt⟩ ⟨(i 1).val, (i 1).isLt⟩

/-- What grid point t writes back to the first output is block t of that array. -/
theorem flushed20_eq (c : Dev nD) (t : Fin cfg0.N) :
    (dat0 V c).flushed 20 t = ((cfg0.win 20).blk t).view.read (Elt Ideal) (x1 V c) := by
  show (cfg0.win 20).cut (grid0.coords t) ((dat0 V c).after 20 t) = _
  rw [after0_20]
  unfold out0_20
  rw [View.canon_unit_zero hz]
  simp only [View.ld_unit_zero (S := S2000x128) hz, View.ld_unit_zero (S := S2000x1) hz, View.ld_unit_zero (S := S128x128) hz, View.ld_unit_zero (S := S1x128) hz, View.ld_unit_zero (S := S1x1) hz]
  funext y
  obtain ⟨p, q, rfl⟩ : ∃ (p : Fin 2000) (q : Fin 128), y = ix2 p q := ⟨y 0, y 1, eq_ix2 y⟩
  refine (pay3_at (iblk0 V c 0 t) (iblk0 V c 2 t) (iblk0 V c 1 t) (iblk0 V c 7 t) (iblk0 V c 9 t) (iblk0 V c 8 t) p q).trans ?_
  show _ = x1 V c (((cfg0.win 20).blk t).view.emb (ix2 p q))
  rw [emb0_20 t p q]
  simp only [rd0_0, rd0_1, rd0_2, rd0_7, rd0_8, rd0_9]
  rfl

/-- An index of the array is in point t's block iff each coordinate is in the block's range on its axis. -/
theorem mem_blk0_20 (t : Fin cfg0.N) (i : S100000x128.Idx) :
    i ∈ ((cfg0.win 20).blk t).view.set ↔ ∀ a : Fin 2, win0_20.index t a * S2000x128.size a ≤ (i a).val ∧ (i a).val < win0_20.index t a * S2000x128.size a + S2000x128.size a := by
  show i ∈ ((View.whole main_v94_0).slice (win0_20.rect t)).set ↔ _
  rw [View.set_slice_whole, Rect.mem_set_unit]
  exact Iff.rfl

/-- Every node row lies in the block of the grid point numbered by the row's quotient by 2000. -/
theorem cover0_20 (i : S100000x128.Idx) : ∃ t : Fin cfg0.N, (cfg0.win 20).flush t = true ∧ i ∈ ((cfg0.win 20).blk t).view.set := by
  have hi0 : (i 0).val < 100000 := (i 0).isLt
  have hi1 : (i 1).val < 128 := (i 1).isLt
  refine ⟨⟨(i 0).val / 2000, by show (i 0).val / 2000 < 50; omega⟩, flush0_20 _, ?_⟩
  rw [mem_blk0_20]
  obtain ⟨e0, e1⟩ := idx0_20 ⟨(i 0).val / 2000, by show (i 0).val / 2000 < 50; omega⟩
  intro a
  match a with
  | ⟨0, _⟩ => show win0_20.index _ (0 : Fin 2) * 2000 ≤ (i 0).val ∧ (i 0).val < win0_20.index _ (0 : Fin 2) * 2000 + 2000; rw [e0]; show (i 0).val / 2000 * 2000 ≤ (i 0).val ∧ (i 0).val < (i 0).val / 2000 * 2000 + 2000; omega
  | ⟨1, _⟩ => show win0_20.index _ (1 : Fin 2) * 128 ≤ (i 1).val ∧ (i 1).val < win0_20.index _ (1 : Fin 2) * 128 + 128; rw [e1]; omega

/-- The first output array after the first kernel's grid. -/
theorem final20 (c : Dev nD) : (dat0 V c).arrAt 20 cfg0.N = x1 V c :=
  (dat0 V c).arrAt_eq_of_cover 20 (x1 V c) (fun t _ => flushed20_eq V c t) (cover0_20)

/-! ## The second output: the two tree branches mixed -/

/-- The first tree branch at node n: its rectified convolution. -/
def br0At (c : Dev nD) (n : Fin 100000) (j : Fin 128) : EReal :=
  max (conv (fun k => V c main_v32 (ix2 n k)) (fun k => V c main_arg0 (ix2 n k)) (V c main_v37 (ix2 n (0 : Fin 1)))
      (fun k j' => V c main_v68 (ix2 k j')) (fun k j' => V c main_v71 (ix2 k j')) (fun j' => V c main_v74 (ix2 (0 : Fin 1) j')) j) zero

/-- The second tree branch at node n: its rectified convolution. -/
def br1At (c : Dev nD) (n : Fin 100000) (j : Fin 128) : EReal :=
  max (conv (fun k => V c main_v51 (ix2 n k)) (fun k => V c main_arg0 (ix2 n k)) (V c main_v56 (ix2 n (0 : Fin 1)))
      (fun k j' => V c main_v77 (ix2 k j')) (fun k j' => V c main_v80 (ix2 k j')) (fun j' => V c main_v83 (ix2 (0 : Fin 1) j')) j) zero

/-- The two branches of node n mixed by the softmax of their gate scores. -/
def xtAt (c : Dev nD) (n : Fin 100000) (j : Fin 128) : EReal :=
  gate (br0At V c n j) (br1At V c n j)
    (score (fun k => br0At V c n k) (fun k => V c main_v85 (ix2 (0 : Fin 1) k)) (V c main_v90 (ix2 (0 : Fin 1) (0 : Fin 1))))
    (score (fun k => br1At V c n k) (fun k => V c main_v87 (ix2 (0 : Fin 1) k)) (V c main_v93 (ix2 (0 : Fin 1) (0 : Fin 1))))

/-- The same, as an array. -/
def xt (c : Dev nD) : S100000x128.Idx → EReal := fun i => xtAt V c ⟨(i 0).val, (i 0).isLt⟩ ⟨(i 1).val, (i 1).isLt⟩

/-- What grid point t writes back to the second output is block t of that array. -/
theorem flushed21_eq (c : Dev nD) (t : Fin cfg0.N) :
    (dat0 V c).flushed 21 t = ((cfg0.win 21).blk t).view.read (Elt Ideal) (xt V c) := by
  show (cfg0.win 21).cut (grid0.coords t) ((dat0 V c).after 21 t) = _
  rw [after0_21]
  unfold out0_21
  rw [View.canon_unit_zero hz]
  simp only [View.ld_unit_zero (S := S2000x128) hz, View.ld_unit_zero (S := S2000x1) hz, View.ld_unit_zero (S := S128x128) hz, View.ld_unit_zero (S := S1x128) hz, View.ld_unit_zero (S := S1x1) hz]
  funext y
  obtain ⟨p, q, rfl⟩ : ∃ (p : Fin 2000) (q : Fin 128), y = ix2 p q := ⟨y 0, y 1, eq_ix2 y⟩
  refine (tree_at (iblk0 V c 0 t) (iblk0 V c 4 t) (iblk0 V c 3 t) (iblk0 V c 10 t) (iblk0 V c 12 t) (iblk0 V c 11 t)
    (iblk0 V c 6 t) (iblk0 V c 5 t) (iblk0 V c 13 t) (iblk0 V c 15 t) (iblk0 V c 14 t)
    (iblk0 V c 16 t) (iblk0 V c 17 t) (iblk0 V c 18 t) (iblk0 V c 19 t) p q).trans ?_
  show _ = xt V c (((cfg0.win 21).blk t).view.emb (ix2 p q))
  rw [emb0_21 t p q]
  simp only [rd0_0, rd0_3, rd0_4, rd0_5, rd0_6, rd0_10, rd0_11, rd0_12, rd0_13, rd0_14, rd0_15, rd0_16, rd0_17, rd0_18, rd0_19]
  rfl

/-- An index of the array is in point t's block iff each coordinate is in the block's range on its axis. -/
theorem mem_blk0_21 (t : Fin cfg0.N) (i : S100000x128.Idx) :
    i ∈ ((cfg0.win 21).blk t).view.set ↔ ∀ a : Fin 2, win0_21.index t a * S2000x128.size a ≤ (i a).val ∧ (i a).val < win0_21.index t a * S2000x128.size a + S2000x128.size a := by
  show i ∈ ((View.whole main_v94_1).slice (win0_21.rect t)).set ↔ _
  rw [View.set_slice_whole, Rect.mem_set_unit]
  exact Iff.rfl

/-- Every node row lies in the block of the grid point numbered by the row's quotient by 2000. -/
theorem cover0_21 (i : S100000x128.Idx) : ∃ t : Fin cfg0.N, (cfg0.win 21).flush t = true ∧ i ∈ ((cfg0.win 21).blk t).view.set := by
  have hi0 : (i 0).val < 100000 := (i 0).isLt
  have hi1 : (i 1).val < 128 := (i 1).isLt
  refine ⟨⟨(i 0).val / 2000, by show (i 0).val / 2000 < 50; omega⟩, flush0_21 _, ?_⟩
  rw [mem_blk0_21]
  obtain ⟨e0, e1⟩ := idx0_21 ⟨(i 0).val / 2000, by show (i 0).val / 2000 < 50; omega⟩
  intro a
  match a with
  | ⟨0, _⟩ => show win0_21.index _ (0 : Fin 2) * 2000 ≤ (i 0).val ∧ (i 0).val < win0_21.index _ (0 : Fin 2) * 2000 + 2000; rw [e0]; show (i 0).val / 2000 * 2000 ≤ (i 0).val ∧ (i 0).val < (i 0).val / 2000 * 2000 + 2000; omega
  | ⟨1, _⟩ => show win0_21.index _ (1 : Fin 2) * 128 ≤ (i 1).val ∧ (i 1).val < win0_21.index _ (1 : Fin 2) * 128 + 128; rw [e1]; omega

/-- The second output array after the first kernel's grid. -/
theorem final21 (c : Dev nD) : (dat0 V c).arrAt 21 cfg0.N = xt V c :=
  (dat0 V c).arrAt_eq_of_cover 21 (xt V c) (fun t _ => flushed21_eq V c t) (cover0_21)

end Cert.KernelIdeal.Blocks0

end
-- ==== Proof.KRegion1.lean ====
/-
  What the second kernel leaves in the result array, as one function of the arrays it finds.

  The second kernel's grid point t loads rows 2000 t … 2000 t + 1999 of the first layer's output, of its neighbour
  sums, of the neighbour counts and of the mixed tree branches, and the second layer's weights and bias whole; it
  stores, at row p and column q of its block, the second layer's convolution of that row plus the mixed branches'
  entry. Block t is written back to rows 2000 t … of the result, the fifty blocks tile the result, so the result
  array ends as that formula of the arrays at every node and feature.
-/
import proofs.«150327_j27470610825587_2_alg».proof.Proof.Gen.KernelIdeal.Frame
import proofs.«150327_j27470610825587_2_alg».proof.Proof.KBody

set_option maxRecDepth 16384

noncomputable section

namespace Cert.KernelIdeal.Blocks1

open Cert.KernelIdeal Cert.KernelIdeal.Gen Cert.KernelIdeal.Body Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row p of the block of grid point t is row 2000 t + p of the array. -/
def row (t : Fin cfg1.N) (p : Fin 2000) : Fin 100000 :=
  ⟨t.val * 2000 + p.val, by have ht : t.val < 50 := t.isLt; have := p.isLt; omega⟩

/-! ## Where each window's block sits in its array

Along the node axis the grid point t takes rows 2000 t … 2000 t + 1999 of every per-node array; the weights, bias rows
and gate scalars are fetched whole at every point. -/

theorem idx1_0 : ∀ t : Fin cfg1.N, win1_0.index t (0 : Fin 2) = t.val ∧ win1_0.index t (1 : Fin 2) = 0 :=
  (by decide +kernel : ∀ t : Fin grid1.N, _)
theorem emb1_0 (t : Fin cfg1.N) (p : Fin 2000) (q : Fin 128) :
    ((cfg1.win 0).blk t).view.emb (ix2 p q) = ix2 (row t p) q := by
  funext a; apply Fin.ext
  obtain ⟨e0, e1⟩ := idx1_0 t
  match a with
  | ⟨0, _⟩ => show win1_0.index t (0 : Fin 2) * 2000 + 1 * p.val = t.val * 2000 + p.val; omega
  | ⟨1, _⟩ => show win1_0.index t (1 : Fin 2) * 128 + 1 * q.val = q.val; omega
theorem rd1_0 (c : Dev nD) (t : Fin cfg1.N) (p : Fin 2000) (q : Fin 128) :
    iblk1 V c 0 t (ix2 p q) = V c main_v94_0 (ix2 (row t p) q) :=
  congrArg (V c main_v94_0) (emb1_0 t p q)

theorem idx1_1 : ∀ t : Fin cfg1.N, win1_1.index t (0 : Fin 2) = t.val ∧ win1_1.index t (1 : Fin 2) = 0 :=
  (by decide +kernel : ∀ t : Fin grid1.N, _)
theorem emb1_1 (t : Fin cfg1.N) (p : Fin 2000) (q : Fin 128) :
    ((cfg1.win 1).blk t).view.emb (ix2 p q) = ix2 (row t p) q := by
  funext a; apply Fin.ext
  obtain ⟨e0, e1⟩ := idx1_1 t
  match a with
  | ⟨0, _⟩ => show win1_1.index t (0 : Fin 2) * 2000 + 1 * p.val = t.val * 2000 + p.val; omega
  | ⟨1, _⟩ => show win1_1.index t (1 : Fin 2) * 128 + 1 * q.val = q.val; omega
theorem rd1_1 (c : Dev nD) (t : Fin cfg1.N) (p : Fin 2000) (q : Fin 128) :
    iblk1 V c 1 t (ix2 p q) = V c main_v104 (ix2 (row t p) q) :=
  congrArg (V c main_v104) (emb1_1 t p q)

theorem idx1_2 : ∀ t : Fin cfg1.N, win1_2.index t (0 : Fin 2) = t.val ∧ win1_2.index t (1 : Fin 2) = 0 :=
  (by decide +kernel : ∀ t : Fin grid1.N, _)
theorem emb1_2 (t : Fin cfg1.N) (p : Fin 2000) :
    ((cfg1.win 2).blk t).view.emb (ix2 p (0 : Fin 1)) = ix2 (row t p) (0 : Fin 1) := by
  funext a; apply Fin.ext
  obtain ⟨e0, e1⟩ := idx1_2 t
  match a with
  | ⟨0, _⟩ => show win1_2.index t (0 : Fin 2) * 2000 + 1 * p.val = t.val * 2000 + p.val; omega
  | ⟨1, _⟩ => show win1_2.index t (1 : Fin 2) * 1 + 1 * 0 = 0; omega
theorem rd1_2 (c : Dev nD) (t : Fin cfg1.N) (p : Fin 2000) :
    iblk1 V c 2 t (ix2 p (0 : Fin 1)) = V c main_v8 (ix2 (row t p) (0 : Fin 1)) :=
  congrArg (V c main_v8) (emb1_2 t p)

theorem idx1_3 : ∀ t : Fin cfg1.N, win1_3.index t (0 : Fin 2) = 0 ∧ win1_3.index t (1 : Fin 2) = 0 :=
  (by decide +kernel : ∀ t : Fin grid1.N, _)
theorem emb1_3 (t : Fin cfg1.N) (p : Fin 128) (q : Fin 128) :
    ((cfg1.win 3).blk t).view.emb (ix2 p q) = ix2 p q := by
  funext a; apply Fin.ext
  obtain ⟨e0, e1⟩ := idx1_3 t
  match a with
  | ⟨0, _⟩ => show win1_3.index t (0 : Fin 2) * 128 + 1 * p.val = p.val; omega
  | ⟨1, _⟩ => show win1_3.index t (1 : Fin 2) * 128 + 1 * q.val = q.val; omega
theorem rd1_3 (c : Dev nD) (t : Fin cfg1.N) (p : Fin 128) (q : Fin 128) :
    iblk1 V c 3 t (ix2 p q) = V c main_v107 (ix2 p q) :=
  congrArg (V c main_v107) (emb1_3 t p q)

theorem idx1_4 : ∀ t : Fin cfg1.N, win1_4.index t (0 : Fin 2) = 0 ∧ win1_4.index t (1 : Fin 2) = 0 :=
  (by decide +kernel : ∀ t : Fin grid1.N, _)
theorem emb1_4 (t : Fin cfg1.N) (q : Fin 128) :
    ((cfg1.win 4).blk t).view.emb (ix2 (0 : Fin 1) q) = ix2 (0 : Fin 1) q := by
  funext a; apply Fin.ext
  obtain ⟨e0, e1⟩ := idx1_4 t
  match a with
  | ⟨0, _⟩ => show win1_4.index t (0 : Fin 2) * 1 + 1 * 0 = 0; omega
  | ⟨1, _⟩ => show win1_4.index t (1 : Fin 2) * 128 + 1 * q.val = q.val; omega
theorem rd1_4 (c : Dev nD) (t : Fin cfg1.N) (q : Fin 128) :
    iblk1 V c 4 t (ix2 (0 : Fin 1) q) = V c main_v113 (ix2 (0 : Fin 1) q) :=
  congrArg (V c main_v113) (emb1_4 t q)

theorem idx1_5 : ∀ t : Fin cfg1.N, win1_5.index t (0 : Fin 2) = 0 ∧ win1_5.index t (1 : Fin 2) = 0 :=
  (by decide +kernel : ∀ t : Fin grid1.N, _)
theorem emb1_5 (t : Fin cfg1.N) (p : Fin 128) (q : Fin 128) :
    ((cfg1.win 5).blk t).view.emb (ix2 p q) = ix2 p q := by
  funext a; apply Fin.ext
  obtain ⟨e0, e1⟩ := idx1_5 t
  match a with
  | ⟨0, _⟩ => show win1_5.index t (0 : Fin 2) * 128 + 1 * p.val = p.val; omega
  | ⟨1, _⟩ => show win1_5.index t (1 : Fin 2) * 128 + 1 * q.val = q.val; omega
theorem rd1_5 (c : Dev nD) (t : Fin cfg1.N) (p : Fin 128) (q : Fin 128) :
    iblk1 V c 5 t (ix2 p q) = V c main_v110 (ix2 p q) :=
  congrArg (V c main_v110) (emb1_5 t p q)

theorem idx1_6 : ∀ t : Fin cfg1.N, win1_6.index t (0 : Fin 2) = t.val ∧ win1_6.index t (1 : Fin 2) = 0 :=
  (by decide +kernel : ∀ t : Fin grid1.N, _)
theorem emb1_6 (t : Fin cfg1.N) (p : Fin 2000) (q : Fin 128) :
    ((cfg1.win 6).blk t).view.emb (ix2 p q) = ix2 (row t p) q := by
  funext a; apply Fin.ext
  obtain ⟨e0, e1⟩ := idx1_6 t
  match a with
  | ⟨0, _⟩ => show win1_6.index t (0 : Fin 2) * 2000 + 1 * p.val = t.val * 2000 + p.val; omega
  | ⟨1, _⟩ => show win1_6.index t (1 : Fin 2) * 128 + 1 * q.val = q.val; omega
theorem rd1_6 (c : Dev nD) (t : Fin cfg1.N) (p : Fin 2000) (q : Fin 128) :
    iblk1 V c 6 t (ix2 p q) = V c main_v94_1 (ix2 (row t p) q) :=
  congrArg (V c main_v94_1) (emb1_6 t p q)

theorem idx1_7 : ∀ t : Fin cfg1.N, win1_7.index t (0 : Fin 2) = t.val ∧ win1_7.index t (1 : Fin 2) = 0 :=
  (by decide +kernel : ∀ t : Fin grid1.N, _)
theorem emb1_7 (t : Fin cfg1.N) (p : Fin 2000) (q : Fin 128) :
    ((cfg1.win 7).blk t).view.emb (ix2 p q) = ix2 (row t p) q := by
  funext a; apply Fin.ext
  obtain ⟨e0, e1⟩ := idx1_7 t
  match a with
  | ⟨0, _⟩ => show win1_7.index t (0 : Fin 2) * 2000 + 1 * p.val = t.val * 2000 + p.val; omega
  | ⟨1, _⟩ => show win1_7.index t (1 : Fin 2) * 128 + 1 * q.val = q.val; omega

/-! ## The result array -/

/-- The second layer's convolution of node n plus the mixed tree branches, from the arrays the kernel finds. -/
def outAt (c : Dev nD) (n : Fin 100000) (j : Fin 128) : EReal :=
  conv (fun k => V c main_v104 (ix2 n k)) (fun k => V c main_v94_0 (ix2 n k)) (V c main_v8 (ix2 n (0 : Fin 1)))
      (fun k j' => V c main_v107 (ix2 k j')) (fun k j' => V c main_v110 (ix2 k j')) (fun j' => V c main_v113 (ix2 (0 : Fin 1) j')) j
    + V c main_v94_1 (ix2 n j)

/-- The same, as an array. -/
def out (c : Dev nD) : S100000x128.Idx → EReal := fun i => outAt V c ⟨(i 0).val, (i 0).isLt⟩ ⟨(i 1).val, (i 1).isLt⟩

/-- What grid point t writes back is block t of that array. -/
theorem flushed_eq (c : Dev nD) (t : Fin cfg1.N) :
    (dat1 V c).flushed 7 t = ((cfg1.win 7).blk t).view.read (Elt Ideal) (out V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S2000x1) hz, View.ld_unit_zero (S := S128x128) hz, View.ld_unit_zero (S := S1x128) hz, View.ld_unit_zero (S := S1x1) hz]
  funext y
  obtain ⟨p, q, rfl⟩ : ∃ (p : Fin 2000) (q : Fin 128), y = ix2 p q := ⟨y 0, y 1, eq_ix2 y⟩
  refine (k1_pay1_at (iblk1 V c 0 t) (iblk1 V c 2 t) (iblk1 V c 1 t) (iblk1 V c 3 t) (iblk1 V c 5 t) (iblk1 V c 4 t) (iblk1 V c 6 t) p q).trans ?_
  show _ = out V c (((cfg1.win 7).blk t).view.emb (ix2 p q))
  rw [emb1_7 t p q]
  simp only [rd1_0, rd1_1, rd1_2, rd1_3, rd1_4, rd1_5, rd1_6]
  rfl

/-- An index of the array is in point t's block iff each coordinate is in the block's range on its axis. -/
theorem mem_blk1_7 (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v114).slice (win1_7.rect t)).set ↔ _
  rw [View.set_slice_whole, Rect.mem_set_unit]
  exact Iff.rfl

/-- Every node row lies in the block of the grid point numbered by the row's quotient by 2000. -/
theorem cover1_7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  refine ⟨⟨(i 0).val / 2000, by show (i 0).val / 2000 < 50; omega⟩, flush1_7 _, ?_⟩
  rw [mem_blk1_7]
  obtain ⟨e0, e1⟩ := idx1_7 ⟨(i 0).val / 2000, by show (i 0).val / 2000 < 50; omega⟩
  intro a
  match a with
  | ⟨0, _⟩ => show win1_7.index _ (0 : Fin 2) * 2000 ≤ (i 0).val ∧ (i 0).val < win1_7.index _ (0 : Fin 2) * 2000 + 2000; rw [e0]; show (i 0).val / 2000 * 2000 ≤ (i 0).val ∧ (i 0).val < (i 0).val / 2000 * 2000 + 2000; omega
  | ⟨1, _⟩ => show win1_7.index _ (1 : Fin 2) * 128 ≤ (i 1).val ∧ (i 1).val < win1_7.index _ (1 : Fin 2) * 128 + 128; rw [e1]; omega

/-- The result array after the second kernel's grid. -/
theorem final (c : Dev nD) : (dat1 V c).arrAt 7 cfg1.N = out V c :=
  (dat1 V c).arrAt_eq_of_cover 7 (out V c) (fun t _ => flushed_eq V c t) (cover1_7)

end Cert.KernelIdeal.Blocks1

end
-- ==== Proof.KHostDefs.lean ====
/-
  The graph aggregation both programs share, named.

  Both programs gather each edge's source features and add them into the edge's destination row, and count a node's
  incoming edges by adding ones the same way; neither step is opened anywhere in this proof. They are named here so
  that the kernel's wrapper and the reference can be said to apply the same function to their edge lists.
-/
import proofs.«150327_j27470610825587_2_alg».proof.Proof.Gen.KernelIdeal.Launch
import proofs.«150327_j27470610825587_2_alg».proof.Proof.Gen.ReferenceIdeal.Read
import Idealize.ShloMosaic.Lib.StableHlo.Run

set_option maxRecDepth 16384

noncomputable section

namespace Cert.KernelIdeal.HostDefs

open Cert.KernelIdeal Cert.KernelIdeal.Gen Idealize.ShloMosaic Idealize.ShloMosaic.TcCoe Idealize.ShloMosaic.StableHlo

/-- The neighbour sums: the features of each edge's source node added into the edge's destination node, from zero. A
    negative source index counts from the end, as array indexing does. -/
def aggOf (x : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The neighbour counts: one added into each edge's destination node, from zero. -/
def cntOf (dst : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- Row (a, b) of the tree edges, taken in one step. -/
abbrev edgeRow00 (a2 : (⟨S2x2x1600000, .i32⟩ : BufTy).Contents (Elt Ideal)) : (⟨S1600000, .i32⟩ : BufTy).Contents (Elt Ideal) :=
  shapeCast S1600000 (extractStridedSlice S1x1x1600000 ![0, 0, 0] a2 slices_S2x2x1600000_S1x1x1600000_0_0_0) shapeCasts_S1x1x1600000_S1600000
abbrev edgeRow01 (a2 : (⟨S2x2x1600000, .i32⟩ : BufTy).Contents (Elt Ideal)) : (⟨S1600000, .i32⟩ : BufTy).Contents (Elt Ideal) :=
  shapeCast S1600000 (extractStridedSlice S1x1x1600000 ![0, 1, 0] a2 slices_S2x2x1600000_S1x1x1600000_0_1_0) shapeCasts_S1x1x1600000_S1600000
abbrev edgeRow10 (a2 : (⟨S2x2x1600000, .i32⟩ : BufTy).Contents (Elt Ideal)) : (⟨S1600000, .i32⟩ : BufTy).Contents (Elt Ideal) :=
  shapeCast S1600000 (extractStridedSlice S1x1x1600000 ![1, 0, 0] a2 slices_S2x2x1600000_S1x1x1600000_1_0_0) shapeCasts_S1x1x1600000_S1600000
abbrev edgeRow11 (a2 : (⟨S2x2x1600000, .i32⟩ : BufTy).Contents (Elt Ideal)) : (⟨S1600000, .i32⟩ : BufTy).Contents (Elt Ideal) :=
  shapeCast S1600000 (extractStridedSlice S1x1x1600000 ![1, 1, 0] a2 slices_S2x2x1600000_S1x1x1600000_1_1_0) shapeCasts_S1x1x1600000_S1600000

/-! ## The reference's neighbour sums and counts are the same two functions of its edge lists -/

section Ref
variable (a0 : (⟨S100000x128, .f32⟩ : BufTy).Contents (Elt Ideal)) (a1 : (⟨S2x1600000, .i32⟩ : BufTy).Contents (Elt Ideal))
  (a2 : (⟨S2x2x1600000, .i32⟩ : BufTy).Contents (Elt Ideal)) (a3 a5 : (⟨S2x128x128, .f32⟩ : BufTy).Contents (Elt Ideal))
  (a4 : (⟨S2x128, .f32⟩ : BufTy).Contents (Elt Ideal))

theorem ref_agg_main0 : Cert.ReferenceIdeal.Read.val_main_v19 (F := Ideal) a0 a1 = aggOf a0 (Cert.ReferenceIdeal.Read.val_main_v7 (F := Ideal) a1) (Cert.ReferenceIdeal.Read.val_main_v9 (F := Ideal) a1) := rfl
theorem ref_cnt_main0 : Cert.ReferenceIdeal.Read.val_main_v23 (F := Ideal) a1 = cntOf (Cert.ReferenceIdeal.Read.val_main_v9 (F := Ideal) a1) := rfl
theorem ref_agg_main1 : Cert.ReferenceIdeal.Read.val_main_v57 (F := Ideal) a0 a1 a3 a4 a5 = aggOf (Cert.ReferenceIdeal.Read.val_main_v37 (F := Ideal) a0 a1 a3 a4 a5) (Cert.ReferenceIdeal.Read.val_main_v7 (F := Ideal) a1) (Cert.ReferenceIdeal.Read.val_main_v9 (F := Ideal) a1) := rfl
theorem ref_cnt_main1 : Cert.ReferenceIdeal.Read.val_main_v61 (F := Ideal) a1 = cntOf (Cert.ReferenceIdeal.Read.val_main_v9 (F := Ideal) a1) := rfl
theorem ref_agg_tree0 : Cert.ReferenceIdeal.Read.val_main_v96 (F := Ideal) a0 a2 = aggOf a0 (Cert.ReferenceIdeal.Read.val_main_v84 (F := Ideal) a2) (Cert.ReferenceIdeal.Read.val_main_v86 (F := Ideal) a2) := rfl
theorem ref_cnt_tree0 : Cert.ReferenceIdeal.Read.val_main_v100 (F := Ideal) a2 = cntOf (Cert.ReferenceIdeal.Read.val_main_v86 (F := Ideal) a2) := rfl
theorem ref_agg_tree1 : Cert.ReferenceIdeal.Read.val_main_v136 (F := Ideal) a0 a2 = aggOf a0 (Cert.ReferenceIdeal.Read.val_main_v124 (F := Ideal) a2) (Cert.ReferenceIdeal.Read.val_main_v126 (F := Ideal) a2) := rfl
theorem ref_cnt_tree1 : Cert.ReferenceIdeal.Read.val_main_v140 (F := Ideal) a2 = cntOf (Cert.ReferenceIdeal.Read.val_main_v126 (F := Ideal) a2) := rfl
end Ref

end Cert.KernelIdeal.HostDefs

end
-- ==== Proof.KHost0a.lean ====
/-
  What the first stretch of host operations leaves in the buffers the first kernel reads, from any contents.

  The stretch slices the edge lists, weights, biases and gate parameters out of the arguments, transposes the weight
  matrices, and computes the neighbour sums and counts of the three edge sets. Each buffer the first kernel reads ends
  at the same composition of operations that the reference applies to the same arguments; the tree edge lists alone are
  sliced in one step here and in two there.
-/
import proofs.«150327_j27470610825587_2_alg».proof.Proof.Gen.KernelIdeal.Launch
import proofs.«150327_j27470610825587_2_alg».proof.Proof.Gen.ReferenceIdeal.Read
import proofs.«150327_j27470610825587_2_alg».proof.Proof.KHostDefs
import Idealize.ShloMosaic.Lib.StableHlo.Run

set_option maxRecDepth 16384

noncomputable section

namespace Cert.KernelIdeal.Host0a

open Cert.KernelIdeal Cert.KernelIdeal.Gen Idealize.ShloMosaic Idealize.ShloMosaic.TcCoe Idealize.ShloMosaic.StableHlo

variable (X : Valuation τ sig (Elt Ideal))

set_option maxHeartbeats 40000000 in
/-- The node features are an argument: no host operation writes them. -/
theorem x : after (hostOps0 (F := Ideal)) X (Proc.devRef .tc main_arg0) = (X (Proc.devRef .tc main_arg0)) := by
  after_results_simp <;> rfl

set_option maxHeartbeats 40000000 in
/-- The main edges' neighbour sums of the node features. -/
theorem agg_main : after (hostOps0 (F := Ideal)) X (Proc.devRef .tc main_v18) = Cert.KernelIdeal.HostDefs.aggOf (X (Proc.devRef .tc main_arg0)) (Cert.ReferenceIdeal.Read.val_main_v7 (F := Ideal) (X (Proc.devRef .tc main_arg1))) (Cert.ReferenceIdeal.Read.val_main_v9 (F := Ideal) (X (Proc.devRef .tc main_arg1))) := by
  after_results_simp <;> rfl

set_option maxHeartbeats 40000000 in
/-- The main edges' neighbour counts, as a column. -/
theorem cnt_main : after (hostOps0 (F := Ideal)) X (Proc.devRef .tc main_v8) = shapeCast S100000x1 (Cert.KernelIdeal.HostDefs.cntOf (Cert.ReferenceIdeal.Read.val_main_v9 (F := Ideal) (X (Proc.devRef .tc main_arg1)))) shapeCasts_S100000_S100000x1 := by
  after_results_simp <;> rfl

set_option maxHeartbeats 40000000 in
/-- The main edges' source nodes. -/
theorem src_main : after (hostOps0 (F := Ideal)) X (Proc.devRef .tc main_v1) = Cert.ReferenceIdeal.Read.val_main_v7 (F := Ideal) (X (Proc.devRef .tc main_arg1)) := by
  after_results_simp <;> rfl

set_option maxHeartbeats 40000000 in
/-- The main edges' destination nodes. -/
theorem dst_main : after (hostOps0 (F := Ideal)) X (Proc.devRef .tc main_v3) = Cert.ReferenceIdeal.Read.val_main_v9 (F := Ideal) (X (Proc.devRef .tc main_arg1)) := by
  after_results_simp <;> rfl

set_option maxHeartbeats 40000000 in
/-- The first tree branch's neighbour sums. -/
theorem agg_t0 : after (hostOps0 (F := Ideal)) X (Proc.devRef .tc main_v32) = Cert.KernelIdeal.HostDefs.aggOf (X (Proc.devRef .tc main_arg0)) (Cert.KernelIdeal.HostDefs.edgeRow00 (X (Proc.devRef .tc main_arg2))) (Cert.KernelIdeal.HostDefs.edgeRow01 (X (Proc.devRef .tc main_arg2))) := by
  after_results_simp <;> rfl

set_option maxHeartbeats 40000000 in
/-- The first tree branch's neighbour counts, as a column. -/
theorem cnt_t0 : after (hostOps0 (F := Ideal)) X (Proc.devRef .tc main_v37) = shapeCast S100000x1 (Cert.KernelIdeal.HostDefs.cntOf (Cert.KernelIdeal.HostDefs.edgeRow01 (X (Proc.devRef .tc main_arg2)))) shapeCasts_S100000_S100000x1 := by
  after_results_simp <;> rfl

set_option maxHeartbeats 40000000 in
/-- The second tree branch's neighbour sums. -/
theorem agg_t1 : after (hostOps0 (F := Ideal)) X (Proc.devRef .tc main_v51) = Cert.KernelIdeal.HostDefs.aggOf (X (Proc.devRef .tc main_arg0)) (Cert.KernelIdeal.HostDefs.edgeRow10 (X (Proc.devRef .tc main_arg2))) (Cert.KernelIdeal.HostDefs.edgeRow11 (X (Proc.devRef .tc main_arg2))) := by
  after_results_simp <;> rfl

end Cert.KernelIdeal.Host0a

end
-- ==== Proof.KHost0b.lean ====
/-
  What the first stretch of host operations leaves in the buffers the first kernel reads, from any contents.

  The stretch slices the edge lists, weights, biases and gate parameters out of the arguments, transposes the weight
  matrices, and computes the neighbour sums and counts of the three edge sets. Each buffer the first kernel reads ends
  at the same composition of operations that the reference applies to the same arguments; the tree edge lists alone are
  sliced in one step here and in two there.
-/
import proofs.«150327_j27470610825587_2_alg».proof.Proof.Gen.KernelIdeal.Launch
import proofs.«150327_j27470610825587_2_alg».proof.Proof.Gen.ReferenceIdeal.Read
import proofs.«150327_j27470610825587_2_alg».proof.Proof.KHostDefs
import Idealize.ShloMosaic.Lib.StableHlo.Run

set_option maxRecDepth 16384

noncomputable section

namespace Cert.KernelIdeal.Host0b

open Cert.KernelIdeal Cert.KernelIdeal.Gen Idealize.ShloMosaic Idealize.ShloMosaic.TcCoe Idealize.ShloMosaic.StableHlo

variable (X : Valuation τ sig (Elt Ideal))

set_option maxHeartbeats 40000000 in
/-- The second tree branch's neighbour counts, as a column. -/
theorem cnt_t1 : after (hostOps0 (F := Ideal)) X (Proc.devRef .tc main_v56) = shapeCast S100000x1 (Cert.KernelIdeal.HostDefs.cntOf (Cert.KernelIdeal.HostDefs.edgeRow11 (X (Proc.devRef .tc main_arg2)))) shapeCasts_S100000_S100000x1 := by
  after_results_simp <;> rfl

set_option maxHeartbeats 40000000 in
/-- The first layer's first weight matrix, transposed. -/
theorem wl0 : after (hostOps0 (F := Ideal)) X (Proc.devRef .tc main_v59) = Cert.ReferenceIdeal.Read.val_main_v29 (F := Ideal) (X (Proc.devRef .tc main_arg3)) := by
  after_results_simp <;> rfl

set_option maxHeartbeats 40000000 in
/-- The first layer's bias, as a row. -/
theorem bl0 : after (hostOps0 (F := Ideal)) X (Proc.devRef .tc main_v65) = shapeCast S1x128 (Cert.ReferenceIdeal.Read.val_main_v3 (F := Ideal) (X (Proc.devRef .tc main_arg4))) shapeCasts_S128_S1x128 := by
  after_results_simp <;> rfl

set_option maxHeartbeats 40000000 in
/-- The first layer's second weight matrix, transposed. -/
theorem wr0 : after (hostOps0 (F := Ideal)) X (Proc.devRef .tc main_v62) = Cert.ReferenceIdeal.Read.val_main_v34 (F := Ideal) (X (Proc.devRef .tc main_arg5)) := by
  after_results_simp <;> rfl

set_option maxHeartbeats 40000000 in
/-- The first tree branch's first weight matrix, transposed. -/
theorem twl0 : after (hostOps0 (F := Ideal)) X (Proc.devRef .tc main_v68) = Cert.ReferenceIdeal.Read.val_main_v106 (F := Ideal) (X (Proc.devRef .tc main_arg6)) := by
  after_results_simp <;> rfl

set_option maxHeartbeats 40000000 in
/-- The first tree branch's bias, as a row. -/
theorem tbl0 : after (hostOps0 (F := Ideal)) X (Proc.devRef .tc main_v74) = shapeCast S1x128 (Cert.ReferenceIdeal.Read.val_main_v80 (F := Ideal) (X (Proc.devRef .tc main_arg7))) shapeCasts_S128_S1x128 := by
  after_results_simp <;> rfl

set_option maxHeartbeats 40000000 in
/-- The first tree branch's second weight matrix, transposed. -/
theorem twr0 : after (hostOps0 (F := Ideal)) X (Proc.devRef .tc main_v71) = Cert.ReferenceIdeal.Read.val_main_v111 (F := Ideal) (X (Proc.devRef .tc main_arg8)) := by
  after_results_simp <;> rfl

end Cert.KernelIdeal.Host0b

end
-- ==== Proof.KHost0c.lean ====
/-
  What the first stretch of host operations leaves in the buffers the first kernel reads, from any contents.

  The stretch slices the edge lists, weights, biases and gate parameters out of the arguments, transposes the weight
  matrices, and computes the neighbour sums and counts of the three edge sets. Each buffer the first kernel reads ends
  at the same composition of operations that the reference applies to the same arguments; the tree edge lists alone are
  sliced in one step here and in two there.
-/
import proofs.«150327_j27470610825587_2_alg».proof.Proof.Gen.KernelIdeal.Launch
import proofs.«150327_j27470610825587_2_alg».proof.Proof.Gen.ReferenceIdeal.Read
import proofs.«150327_j27470610825587_2_alg».proof.Proof.KHostDefs
import Idealize.ShloMosaic.Lib.StableHlo.Run

set_option maxRecDepth 16384

noncomputable section

namespace Cert.KernelIdeal.Host0c

open Cert.KernelIdeal Cert.KernelIdeal.Gen Idealize.ShloMosaic Idealize.ShloMosaic.TcCoe Idealize.ShloMosaic.StableHlo

variable (X : Valuation τ sig (Elt Ideal))

set_option maxHeartbeats 40000000 in
/-- The second tree branch's first weight matrix, transposed. -/
theorem twl1 : after (hostOps0 (F := Ideal)) X (Proc.devRef .tc main_v77) = Cert.ReferenceIdeal.Read.val_main_v146 (F := Ideal) (X (Proc.devRef .tc main_arg6)) := by
  after_results_simp <;> rfl

set_option maxHeartbeats 40000000 in
/-- The second tree branch's bias, as a row. -/
theorem tbl1 : after (hostOps0 (F := Ideal)) X (Proc.devRef .tc main_v83) = shapeCast S1x128 (Cert.ReferenceIdeal.Read.val_main_v120 (F := Ideal) (X (Proc.devRef .tc main_arg7))) shapeCasts_S128_S1x128 := by
  after_results_simp <;> rfl

set_option maxHeartbeats 40000000 in
/-- The second tree branch's second weight matrix, transposed. -/
theorem twr1 : after (hostOps0 (F := Ideal)) X (Proc.devRef .tc main_v80) = Cert.ReferenceIdeal.Read.val_main_v151 (F := Ideal) (X (Proc.devRef .tc main_arg8)) := by
  after_results_simp <;> rfl

set_option maxHeartbeats 40000000 in
/-- The first gate vector, as a row. -/
theorem gw0 : after (hostOps0 (F := Ideal)) X (Proc.devRef .tc main_v85) = Cert.ReferenceIdeal.Read.val_main_v156 (F := Ideal) (X (Proc.devRef .tc main_arg9)) := by
  after_results_simp <;> rfl

set_option maxHeartbeats 40000000 in
/-- The first gate bias, as a one by one array. -/
theorem gb0 : after (hostOps0 (F := Ideal)) X (Proc.devRef .tc main_v90) = shapeCast S1x1 (Cert.ReferenceIdeal.Read.val_main_v160 (F := Ideal) (X (Proc.devRef .tc main_arg10))) shapeCasts_S1_S1x1 := by
  after_results_simp <;> rfl

set_option maxHeartbeats 40000000 in
/-- The second gate vector, as a row. -/
theorem gw1 : after (hostOps0 (F := Ideal)) X (Proc.devRef .tc main_v87) = Cert.ReferenceIdeal.Read.val_main_v165 (F := Ideal) (X (Proc.devRef .tc main_arg9)) := by
  after_results_simp <;> rfl

set_option maxHeartbeats 40000000 in
/-- The second gate bias, as a one by one array. -/
theorem gb1 : after (hostOps0 (F := Ideal)) X (Proc.devRef .tc main_v93) = shapeCast S1x1 (Cert.ReferenceIdeal.Read.val_main_v169 (F := Ideal) (X (Proc.devRef .tc main_arg10))) shapeCasts_S1_S1x1 := by
  after_results_simp <;> rfl

set_option maxHeartbeats 40000000 in
/-- Argument 3 is not written by the first stretch. -/
theorem arg3 : after (hostOps0 (F := Ideal)) X (Proc.devRef .tc main_arg3) = (X (Proc.devRef .tc main_arg3)) := by
  after_results_simp <;> rfl

set_option maxHeartbeats 40000000 in
/-- Argument 4 is not written by the first stretch. -/
theorem arg4 : after (hostOps0 (F := Ideal)) X (Proc.devRef .tc main_arg4) = (X (Proc.devRef .tc main_arg4)) := by
  after_results_simp <;> rfl

set_option maxHeartbeats 40000000 in
/-- Argument 5 is not written by the first stretch. -/
theorem arg5 : after (hostOps0 (F := Ideal)) X (Proc.devRef .tc main_arg5) = (X (Proc.devRef .tc main_arg5)) := by
  after_results_simp <;> rfl

end Cert.KernelIdeal.Host0c

end
-- ==== Proof.KHost1.lean ====
/-
  What the second stretch of host operations leaves in the buffers the second kernel reads, from any contents.

  Between the kernels the host gathers and adds the first layer's output along the main edges, and slices and
  transposes the second layer's weights and bias; the first kernel's outputs and the neighbour counts pass through.
-/
import proofs.«150327_j27470610825587_2_alg».proof.Proof.Gen.KernelIdeal.Launch
import proofs.«150327_j27470610825587_2_alg».proof.Proof.Gen.ReferenceIdeal.Read
import proofs.«150327_j27470610825587_2_alg».proof.Proof.KHostDefs
import Idealize.ShloMosaic.Lib.StableHlo.Run

set_option maxRecDepth 16384

noncomputable section

namespace Cert.KernelIdeal.Host1

open Cert.KernelIdeal Cert.KernelIdeal.Gen Idealize.ShloMosaic Idealize.ShloMosaic.TcCoe Idealize.ShloMosaic.StableHlo

variable (X : Valuation τ sig (Elt Ideal))

set_option maxHeartbeats 40000000 in
/-- The main edges' neighbour sums of the first layer's output. -/
theorem agg_main1 : after (hostOps1 (F := Ideal)) X (Proc.devRef .tc main_v104) = Cert.KernelIdeal.HostDefs.aggOf (X (Proc.devRef .tc main_v94_0)) (X (Proc.devRef .tc main_v1)) (X (Proc.devRef .tc main_v3)) := by
  after_results_simp <;> rfl

set_option maxHeartbeats 40000000 in
/-- The second layer's first weight matrix, transposed. -/
theorem wl1 : after (hostOps1 (F := Ideal)) X (Proc.devRef .tc main_v107) = Cert.ReferenceIdeal.Read.val_main_v67 (F := Ideal) (X (Proc.devRef .tc main_arg3)) := by
  after_results_simp <;> rfl

set_option maxHeartbeats 40000000 in
/-- The second layer's bias, as a row. -/
theorem bl1 : after (hostOps1 (F := Ideal)) X (Proc.devRef .tc main_v113) = shapeCast S1x128 (Cert.ReferenceIdeal.Read.val_main_v41 (F := Ideal) (X (Proc.devRef .tc main_arg4))) shapeCasts_S128_S1x128 := by
  after_results_simp <;> rfl

set_option maxHeartbeats 40000000 in
/-- The second layer's second weight matrix, transposed. -/
theorem wr1 : after (hostOps1 (F := Ideal)) X (Proc.devRef .tc main_v110) = Cert.ReferenceIdeal.Read.val_main_v72 (F := Ideal) (X (Proc.devRef .tc main_arg5)) := by
  after_results_simp <;> rfl

set_option maxHeartbeats 40000000 in
/-- The first layer's output is not written by the second stretch. -/
theorem x1 : after (hostOps1 (F := Ideal)) X (Proc.devRef .tc main_v94_0) = X (Proc.devRef .tc main_v94_0) := by
  after_results_simp <;> rfl

set_option maxHeartbeats 40000000 in
/-- The mixed tree branches are not written by the second stretch. -/
theorem xt : after (hostOps1 (F := Ideal)) X (Proc.devRef .tc main_v94_1) = X (Proc.devRef .tc main_v94_1) := by
  after_results_simp <;> rfl

set_option maxHeartbeats 40000000 in
/-- The main edges' neighbour counts are not written by the second stretch. -/
theorem cnt : after (hostOps1 (F := Ideal)) X (Proc.devRef .tc main_v8) = X (Proc.devRef .tc main_v8) := by
  after_results_simp <;> rfl

set_option maxHeartbeats 40000000 in
/-- The main edges' source nodes are not written by the second stretch. -/
theorem src : after (hostOps1 (F := Ideal)) X (Proc.devRef .tc main_v1) = X (Proc.devRef .tc main_v1) := by
  after_results_simp <;> rfl

end Cert.KernelIdeal.Host1

end
-- ==== Proof.KEdges.lean ====
/-
  The four edge lists of the two tree branches, read by both programs from the same argument.

  The tree edges come as one array of shape [2, 2, 1600000]: branch, then source or destination, then the edge. The
  kernel's wrapper takes the row (branch, end) in one step; the reference first takes the branch's [2, 1600000] slab
  and then the row of that slab. Entry e of either is entry (branch, end, e) of the argument, so the lists are equal.
-/
import proofs.«150327_j27470610825587_2_alg».proof.Proof.Gen.ReferenceIdeal.Read
import proofs.«150327_j27470610825587_2_alg».proof.Proof.Gen.KernelIdeal
import Idealize.ShloMosaic.Lib.Pipeline.Value
import Idealize.ShloMosaic.Lib.ValueIdx

set_option maxRecDepth 16384

noncomputable section

namespace Cert.KernelIdeal.Edges

open Cert.KernelIdeal Cert.KernelIdeal.Gen Idealize.ShloMosaic Idealize.ShloMosaic.ValueIdx

/-- The first branch's source nodes. -/
theorem src0 (a2 : (⟨S2x2x1600000, .i32⟩ : BufTy).Contents (Elt Ideal)) :
    shapeCast S1600000 (extractStridedSlice S1x1x1600000 ![0, 0, 0] a2 slices_S2x2x1600000_S1x1x1600000_0_0_0) shapeCasts_S1x1x1600000_S1600000
      = Cert.ReferenceIdeal.Read.val_main_v84 (F := Ideal) a2 := by
  funext i
  have hi : (i 0).val < 1600000 := (i 0).isLt
  rw [Cert.ReferenceIdeal.Read.val_main_v84_apply, Cert.ReferenceIdeal.Read.val_main_v83_apply, Cert.ReferenceIdeal.Read.val_main_v76_apply, Cert.ReferenceIdeal.Read.val_main_v75_apply]
  rw [shapeCast_apply _ shapeCasts_S1x1x1600000_S1600000 i (ix3 (0 : Fin 1) (0 : Fin 1) (⟨(i 0).val, hi⟩ : Fin 1600000))
    (by rw [Shape.rowMajor_val_three, Shape.rowMajor_val_one]; show (0 * 1 + 0) * 1600000 + (i 0).val = (i 0).val; omega)]
  rw [extractStridedSlice_apply ![0, 0, 0] a2 slices_S2x2x1600000_S1x1x1600000_0_0_0
    (ix3 (0 : Fin 1) (0 : Fin 1) (⟨(i 0).val, hi⟩ : Fin 1600000)) (ix3 (0 : Fin 2) (0 : Fin 2) (⟨(i 0).val, hi⟩ : Fin 1600000))
    (fun d => match d with
      | ⟨0, _⟩ => rfl
      | ⟨1, _⟩ => rfl
      | ⟨2, _⟩ => by show (i 0).val = 0 + (i 0).val; omega)]
  refine congrArg a2 (funext fun d => Fin.ext ?_)
  match d with
  | ⟨0, _⟩ => rfl
  | ⟨1, _⟩ => show 0 = (0 * 1600000 + (i 0).val % 1600000) / 1600000 % 2; omega
  | ⟨2, _⟩ => show (i 0).val = (0 * 1600000 + (i 0).val % 1600000) % 1600000; omega

/-- The first branch's destination nodes. -/
theorem dst0 (a2 : (⟨S2x2x1600000, .i32⟩ : BufTy).Contents (Elt Ideal)) :
    shapeCast S1600000 (extractStridedSlice S1x1x1600000 ![0, 1, 0] a2 slices_S2x2x1600000_S1x1x1600000_0_1_0) shapeCasts_S1x1x1600000_S1600000
      = Cert.ReferenceIdeal.Read.val_main_v86 (F := Ideal) a2 := by
  funext i
  have hi : (i 0).val < 1600000 := (i 0).isLt
  rw [Cert.ReferenceIdeal.Read.val_main_v86_apply, Cert.ReferenceIdeal.Read.val_main_v85_apply, Cert.ReferenceIdeal.Read.val_main_v76_apply, Cert.ReferenceIdeal.Read.val_main_v75_apply]
  rw [shapeCast_apply _ shapeCasts_S1x1x1600000_S1600000 i (ix3 (0 : Fin 1) (0 : Fin 1) (⟨(i 0).val, hi⟩ : Fin 1600000))
    (by rw [Shape.rowMajor_val_three, Shape.rowMajor_val_one]; show (0 * 1 + 0) * 1600000 + (i 0).val = (i 0).val; omega)]
  rw [extractStridedSlice_apply ![0, 1, 0] a2 slices_S2x2x1600000_S1x1x1600000_0_1_0
    (ix3 (0 : Fin 1) (0 : Fin 1) (⟨(i 0).val, hi⟩ : Fin 1600000)) (ix3 (0 : Fin 2) (1 : Fin 2) (⟨(i 0).val, hi⟩ : Fin 1600000))
    (fun d => match d with
      | ⟨0, _⟩ => rfl
      | ⟨1, _⟩ => rfl
      | ⟨2, _⟩ => by show (i 0).val = 0 + (i 0).val; omega)]
  refine congrArg a2 (funext fun d => Fin.ext ?_)
  match d with
  | ⟨0, _⟩ => rfl
  | ⟨1, _⟩ => show 1 = ((1 + 0) * 1600000 + (i 0).val % 1600000) / 1600000 % 2; omega
  | ⟨2, _⟩ => show (i 0).val = ((1 + 0) * 1600000 + (i 0).val % 1600000) % 1600000; omega

/-- The second branch's source nodes. -/
theorem src1 (a2 : (⟨S2x2x1600000, .i32⟩ : BufTy).Contents (Elt Ideal)) :
    shapeCast S1600000 (extractStridedSlice S1x1x1600000 ![1, 0, 0] a2 slices_S2x2x1600000_S1x1x1600000_1_0_0) shapeCasts_S1x1x1600000_S1600000
      = Cert.ReferenceIdeal.Read.val_main_v124 (F := Ideal) a2 := by
  funext i
  have hi : (i 0).val < 1600000 := (i 0).isLt
  rw [Cert.ReferenceIdeal.Read.val_main_v124_apply, Cert.ReferenceIdeal.Read.val_main_v123_apply, Cert.ReferenceIdeal.Read.val_main_v116_apply, Cert.ReferenceIdeal.Read.val_main_v115_apply]
  rw [shapeCast_apply _ shapeCasts_S1x1x1600000_S1600000 i (ix3 (0 : Fin 1) (0 : Fin 1) (⟨(i 0).val, hi⟩ : Fin 1600000))
    (by rw [Shape.rowMajor_val_three, Shape.rowMajor_val_one]; show (0 * 1 + 0) * 1600000 + (i 0).val = (i 0).val; omega)]
  rw [extractStridedSlice_apply ![1, 0, 0] a2 slices_S2x2x1600000_S1x1x1600000_1_0_0
    (ix3 (0 : Fin 1) (0 : Fin 1) (⟨(i 0).val, hi⟩ : Fin 1600000)) (ix3 (1 : Fin 2) (0 : Fin 2) (⟨(i 0).val, hi⟩ : Fin 1600000))
    (fun d => match d with
      | ⟨0, _⟩ => rfl
      | ⟨1, _⟩ => rfl
      | ⟨2, _⟩ => by show (i 0).val = 0 + (i 0).val; omega)]
  refine congrArg a2 (funext fun d => Fin.ext ?_)
  match d with
  | ⟨0, _⟩ => rfl
  | ⟨1, _⟩ => show 0 = (0 * 1600000 + (i 0).val % 1600000) / 1600000 % 2; omega
  | ⟨2, _⟩ => show (i 0).val = (0 * 1600000 + (i 0).val % 1600000) % 1600000; omega

/-- The second branch's destination nodes. -/
theorem dst1 (a2 : (⟨S2x2x1600000, .i32⟩ : BufTy).Contents (Elt Ideal)) :
    shapeCast S1600000 (extractStridedSlice S1x1x1600000 ![1, 1, 0] a2 slices_S2x2x1600000_S1x1x1600000_1_1_0) shapeCasts_S1x1x1600000_S1600000
      = Cert.ReferenceIdeal.Read.val_main_v126 (F := Ideal) a2 := by
  funext i
  have hi : (i 0).val < 1600000 := (i 0).isLt
  rw [Cert.ReferenceIdeal.Read.val_main_v126_apply, Cert.ReferenceIdeal.Read.val_main_v125_apply, Cert.ReferenceIdeal.Read.val_main_v116_apply, Cert.ReferenceIdeal.Read.val_main_v115_apply]
  rw [shapeCast_apply _ shapeCasts_S1x1x1600000_S1600000 i (ix3 (0 : Fin 1) (0 : Fin 1) (⟨(i 0).val, hi⟩ : Fin 1600000))
    (by rw [Shape.rowMajor_val_three, Shape.rowMajor_val_one]; show (0 * 1 + 0) * 1600000 + (i 0).val = (i 0).val; omega)]
  rw [extractStridedSlice_apply ![1, 1, 0] a2 slices_S2x2x1600000_S1x1x1600000_1_1_0
    (ix3 (0 : Fin 1) (0 : Fin 1) (⟨(i 0).val, hi⟩ : Fin 1600000)) (ix3 (1 : Fin 2) (1 : Fin 2) (⟨(i 0).val, hi⟩ : Fin 1600000))
    (fun d => match d with
      | ⟨0, _⟩ => rfl
      | ⟨1, _⟩ => rfl
      | ⟨2, _⟩ => by show (i 0).val = 0 + (i 0).val; omega)]
  refine congrArg a2 (funext fun d => Fin.ext ?_)
  match d with
  | ⟨0, _⟩ => rfl
  | ⟨1, _⟩ => show 1 = ((1 + 0) * 1600000 + (i 0).val % 1600000) / 1600000 % 2; omega
  | ⟨2, _⟩ => show (i 0).val = ((1 + 0) * 1600000 + (i 0).val % 1600000) % 1600000; omega

end Cert.KernelIdeal.Edges

end
-- ==== Proof.RefValue.lean ====
/-
  The reference program, read one entry at a time.

  Each of its four graph convolutions is, at node n and output feature j, the formula of the specification applied to
  row n of the scattered neighbour sums, the scattered neighbour count of n, row n of the convolved features, the two
  transposed weight matrices and the bias vector; three of them are then rectified. The two tree branches are mixed,
  node by node, by the two-way softmax of their gate scores: the scores are stacked along a last axis of extent two,
  their maximum over that axis (a fold from minus infinity) is subtracted, the exponentials are summed from the zero
  word and each exponential is divided by the sum. The result adds the mixture, times the one word, to the second
  layer's output.

  The scatters (neighbour sums and counts), the transposed weights, the bias and gate vectors stay unopened: every
  statement here holds for whatever those stages are, and only says how the later stages read them at an index.
-/
import proofs.«150327_j27470610825587_2_alg».proof.Proof.Gen.ReferenceIdeal.Read
import proofs.«150327_j27470610825587_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.RefValue

open Cert.ReferenceIdeal Cert.ReferenceIdeal.Gen Cert.ReferenceIdeal.Read Cert.GraphNet Idealize.ShloMosaic
  Idealize.ShloMosaic.ValueIdx Idealize.SL.Sem

/-! ## The four graph convolutions -/

/-- The clamped neighbour count of node n, read anywhere in row n of its broadcast. -/
theorem cnt0_at (a1 : (⟨S2x1600000, .i32⟩ : BufTy).Contents (Elt Ideal)) (n : Fin 100000) (k : Fin 128) :
    val_main_v27 (F := Ideal) a1 (ix2 n k) = max (val_main_v23 (F := Ideal) a1 (ix1 n)) one := by
  have e : idx_main_v26 (idx_main_v27 (ix2 n k)) = ix1 n := funext fun a => match a with | ⟨0, _⟩ => rfl
  rw [val_main_v27_apply, val_main_v26_apply, val_main_v25_apply, val_main_v24_apply, val_main_cst_3_apply,
    Ideal.maximumf_def, Ideal.ofBits_def, e]

/-- Entry (n, j) of the first product: row n of the neighbour means against column j of the first weight matrix. -/
theorem dotl0_at (a0 : (⟨S100000x128, .f32⟩ : BufTy).Contents (Elt Ideal)) (a1 : (⟨S2x1600000, .i32⟩ : BufTy).Contents (Elt Ideal)) (a3 : (⟨S2x128x128, .f32⟩ : BufTy).Contents (Elt Ideal)) (n : Fin 100000) (j : Fin 128) :
    val_main_v30 (F := Ideal) a0 a1 a3 (ix2 n j)
      = ∑ k : Fin 128, Ideal.div (val_main_v19 (F := Ideal) a0 a1 (ix2 n k)) (max (val_main_v23 (F := Ideal) a1 (ix1 n)) one) * val_main_v29 (F := Ideal) a3 (ix2 k j) := by
  rw [val_main_v30_apply]
  refine Finset.sum_congr rfl fun k _ => ?_
  have el : lidx_main_v30 (ix2 n j) k = ix2 n k := funext fun a => match a with | ⟨0, _⟩ => rfl | ⟨1, _⟩ => rfl
  have er : ridx_main_v30 (ix2 n j) k = ix2 k j := funext fun a => match a with | ⟨0, _⟩ => rfl | ⟨1, _⟩ => rfl
  rw [el, er, val_main_v28_apply, cnt0_at, Ideal.hostDivf_def]

/-- Entry (n, j) of the broadcast bias is entry j of the bias vector. -/
theorem bias0_at (a4 : (⟨S2x128, .f32⟩ : BufTy).Contents (Elt Ideal)) (n : Fin 100000) (j : Fin 128) :
    val_main_v32 (F := Ideal) a4 (ix2 n j) = val_main_v3 (F := Ideal) a4 (ix1 j) := by
  have e : idx_main_v31 (idx_main_v32 (ix2 n j)) = ix1 j := funext fun a => match a with | ⟨0, _⟩ => rfl
  rw [val_main_v32_apply, val_main_v31_apply, e]

/-- Entry (n, j) of the second product: row n of the node features against column j of the second weight matrix. -/
theorem dotr0_at (a0 : (⟨S100000x128, .f32⟩ : BufTy).Contents (Elt Ideal)) (a5 : (⟨S2x128x128, .f32⟩ : BufTy).Contents (Elt Ideal)) (n : Fin 100000) (j : Fin 128) :
    val_main_v35 (F := Ideal) a0 a5 (ix2 n j) = ∑ k : Fin 128, a0 (ix2 n k) * val_main_v34 (F := Ideal) a5 (ix2 k j) := by
  rw [val_main_v35_apply]
  refine Finset.sum_congr rfl fun k _ => ?_
  have el : lidx_main_v35 (ix2 n j) k = ix2 n k := funext fun a => match a with | ⟨0, _⟩ => rfl | ⟨1, _⟩ => rfl
  have er : ridx_main_v35 (ix2 n j) k = ix2 k j := funext fun a => match a with | ⟨0, _⟩ => rfl | ⟨1, _⟩ => rfl
  rw [el, er]

/-- The first layer's output at (n, j): the rectified convolution of the input features over the main graph. -/
theorem x1_at (a0 : (⟨S100000x128, .f32⟩ : BufTy).Contents (Elt Ideal)) (a1 : (⟨S2x1600000, .i32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (n : Fin 100000) (j : Fin 128) :
    val_main_v37 (F := Ideal) a0 a1 a3 a4 a5 (ix2 n j)
      = max (conv (fun k => val_main_v19 (F := Ideal) a0 a1 (ix2 n k)) (fun k => a0 (ix2 n k)) (val_main_v23 (F := Ideal) a1 (ix1 n))
        (fun k j' => val_main_v29 (F := Ideal) a3 (ix2 k j')) (fun k j' => val_main_v34 (F := Ideal) a5 (ix2 k j')) (fun j' => val_main_v3 (F := Ideal) a4 (ix1 j')) j) zero := by
  rw [val_main_v37_apply, val_main_call0_v0_apply, val_main_call0_cst_apply, val_main_v36_apply,
    val_main_v33_apply, dotl0_at, bias0_at, dotr0_at]
  simp only [Ideal.maximumf_def, Ideal.addf_def, Ideal.ofBits_def]
  unfold conv
  with_reducible rfl

/-- The clamped neighbour count of node n, read anywhere in row n of its broadcast. -/
theorem cnt1_at (a1 : (⟨S2x1600000, .i32⟩ : BufTy).Contents (Elt Ideal)) (n : Fin 100000) (k : Fin 128) :
    val_main_v65 (F := Ideal) a1 (ix2 n k) = max (val_main_v61 (F := Ideal) a1 (ix1 n)) one := by
  have e : idx_main_v64 (idx_main_v65 (ix2 n k)) = ix1 n := funext fun a => match a with | ⟨0, _⟩ => rfl
  rw [val_main_v65_apply, val_main_v64_apply, val_main_v63_apply, val_main_v62_apply, val_main_cst_9_apply,
    Ideal.maximumf_def, Ideal.ofBits_def, e]

/-- Entry (n, j) of the first product: row n of the neighbour means against column j of the first weight matrix. -/
theorem dotl1_at (a0 : (⟨S100000x128, .f32⟩ : BufTy).Contents (Elt Ideal)) (a1 : (⟨S2x1600000, .i32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (n : Fin 100000) (j : Fin 128) :
    val_main_v68 (F := Ideal) a0 a1 a3 a4 a5 (ix2 n j)
      = ∑ k : Fin 128, Ideal.div (val_main_v57 (F := Ideal) a0 a1 a3 a4 a5 (ix2 n k)) (max (val_main_v61 (F := Ideal) a1 (ix1 n)) one) * val_main_v67 (F := Ideal) a3 (ix2 k j) := by
  rw [val_main_v68_apply]
  refine Finset.sum_congr rfl fun k _ => ?_
  have el : lidx_main_v68 (ix2 n j) k = ix2 n k := funext fun a => match a with | ⟨0, _⟩ => rfl | ⟨1, _⟩ => rfl
  have er : ridx_main_v68 (ix2 n j) k = ix2 k j := funext fun a => match a with | ⟨0, _⟩ => rfl | ⟨1, _⟩ => rfl
  rw [el, er, val_main_v66_apply, cnt1_at, Ideal.hostDivf_def]

/-- Entry (n, j) of the broadcast bias is entry j of the bias vector. -/
theorem bias1_at (a4 : (⟨S2x128, .f32⟩ : BufTy).Contents (Elt Ideal)) (n : Fin 100000) (j : Fin 128) :
    val_main_v70 (F := Ideal) a4 (ix2 n j) = val_main_v41 (F := Ideal) a4 (ix1 j) := by
  have e : idx_main_v69 (idx_main_v70 (ix2 n j)) = ix1 j := funext fun a => match a with | ⟨0, _⟩ => rfl
  rw [val_main_v70_apply, val_main_v69_apply, e]

/-- Entry (n, j) of the second product: row n of the node features against column j of the second weight matrix. -/
theorem dotr1_at (a0 : (⟨S100000x128, .f32⟩ : BufTy).Contents (Elt Ideal)) (a1 : (⟨S2x1600000, .i32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (n : Fin 100000) (j : Fin 128) :
    val_main_v73 (F := Ideal) a0 a1 a3 a4 a5 (ix2 n j) = ∑ k : Fin 128, val_main_v37 (F := Ideal) a0 a1 a3 a4 a5 (ix2 n k) * val_main_v72 (F := Ideal) a5 (ix2 k j) := by
  rw [val_main_v73_apply]
  refine Finset.sum_congr rfl fun k _ => ?_
  have el : lidx_main_v73 (ix2 n j) k = ix2 n k := funext fun a => match a with | ⟨0, _⟩ => rfl | ⟨1, _⟩ => rfl
  have er : ridx_main_v73 (ix2 n j) k = ix2 k j := funext fun a => match a with | ⟨0, _⟩ => rfl | ⟨1, _⟩ => rfl
  rw [el, er]

/-- The second layer's output at (n, j): the convolution of the first layer's output over the main graph. -/
theorem x2_at (a0 : (⟨S100000x128, .f32⟩ : BufTy).Contents (Elt Ideal)) (a1 : (⟨S2x1600000, .i32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (n : Fin 100000) (j : Fin 128) :
    val_main_v74 (F := Ideal) a0 a1 a3 a4 a5 (ix2 n j)
      = conv (fun k => val_main_v57 (F := Ideal) a0 a1 a3 a4 a5 (ix2 n k)) (fun k => val_main_v37 (F := Ideal) a0 a1 a3 a4 a5 (ix2 n k)) (val_main_v61 (F := Ideal) a1 (ix1 n))
        (fun k j' => val_main_v67 (F := Ideal) a3 (ix2 k j')) (fun k j' => val_main_v72 (F := Ideal) a5 (ix2 k j')) (fun j' => val_main_v41 (F := Ideal) a4 (ix1 j')) j := by
  rw [val_main_v74_apply, val_main_v71_apply, dotl1_at, bias1_at, dotr1_at]
  simp only [Ideal.addf_def]
  unfold conv
  with_reducible rfl

/-- The clamped neighbour count of node n, read anywhere in row n of its broadcast. -/
theorem cnt2_at (a2 : (⟨S2x2x1600000, .i32⟩ : BufTy).Contents (Elt Ideal)) (n : Fin 100000) (k : Fin 128) :
    val_main_v104 (F := Ideal) a2 (ix2 n k) = max (val_main_v100 (F := Ideal) a2 (ix1 n)) one := by
  have e : idx_main_v103 (idx_main_v104 (ix2 n k)) = ix1 n := funext fun a => match a with | ⟨0, _⟩ => rfl
  rw [val_main_v104_apply, val_main_v103_apply, val_main_v102_apply, val_main_v101_apply, val_main_cst_15_apply,
    Ideal.maximumf_def, Ideal.ofBits_def, e]

/-- Entry (n, j) of the first product: row n of the neighbour means against column j of the first weight matrix. -/
theorem dotl2_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (n : Fin 100000) (j : Fin 128) :
    val_main_v107 (F := Ideal) a0 a2 a6 (ix2 n j)
      = ∑ k : Fin 128, Ideal.div (val_main_v96 (F := Ideal) a0 a2 (ix2 n k)) (max (val_main_v100 (F := Ideal) a2 (ix1 n)) one) * val_main_v106 (F := Ideal) a6 (ix2 k j) := by
  rw [val_main_v107_apply]
  refine Finset.sum_congr rfl fun k _ => ?_
  have el : lidx_main_v107 (ix2 n j) k = ix2 n k := funext fun a => match a with | ⟨0, _⟩ => rfl | ⟨1, _⟩ => rfl
  have er : ridx_main_v107 (ix2 n j) k = ix2 k j := funext fun a => match a with | ⟨0, _⟩ => rfl | ⟨1, _⟩ => rfl
  rw [el, er, val_main_v105_apply, cnt2_at, Ideal.hostDivf_def]

/-- Entry (n, j) of the broadcast bias is entry j of the bias vector. -/
theorem bias2_at (a7 : (⟨S2x128, .f32⟩ : BufTy).Contents (Elt Ideal)) (n : Fin 100000) (j : Fin 128) :
    val_main_v109 (F := Ideal) a7 (ix2 n j) = val_main_v80 (F := Ideal) a7 (ix1 j) := by
  have e : idx_main_v108 (idx_main_v109 (ix2 n j)) = ix1 j := funext fun a => match a with | ⟨0, _⟩ => rfl
  rw [val_main_v109_apply, val_main_v108_apply, e]

/-- Entry (n, j) of the second product: row n of the node features against column j of the second weight matrix. -/
theorem dotr2_at (a0 : (⟨S100000x128, .f32⟩ : BufTy).Contents (Elt Ideal)) (a8 : (⟨S2x128x128, .f32⟩ : BufTy).Contents (Elt Ideal)) (n : Fin 100000) (j : Fin 128) :
    val_main_v112 (F := Ideal) a0 a8 (ix2 n j) = ∑ k : Fin 128, a0 (ix2 n k) * val_main_v111 (F := Ideal) a8 (ix2 k j) := by
  rw [val_main_v112_apply]
  refine Finset.sum_congr rfl fun k _ => ?_
  have el : lidx_main_v112 (ix2 n j) k = ix2 n k := funext fun a => match a with | ⟨0, _⟩ => rfl | ⟨1, _⟩ => rfl
  have er : ridx_main_v112 (ix2 n j) k = ix2 k j := funext fun a => match a with | ⟨0, _⟩ => rfl | ⟨1, _⟩ => rfl
  rw [el, er]

/-- The first tree branch at (n, j): the rectified convolution of the input features over the first tree graph. -/
theorem t0_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (n : Fin 100000) (j : Fin 128) :
    val_main_v114 (F := Ideal) a0 a2 a6 a7 a8 (ix2 n j)
      = max (conv (fun k => val_main_v96 (F := Ideal) a0 a2 (ix2 n k)) (fun k => a0 (ix2 n k)) (val_main_v100 (F := Ideal) a2 (ix1 n))
        (fun k j' => val_main_v106 (F := Ideal) a6 (ix2 k j')) (fun k j' => val_main_v111 (F := Ideal) a8 (ix2 k j')) (fun j' => val_main_v80 (F := Ideal) a7 (ix1 j')) j) zero := by
  rw [val_main_v114_apply, val_main_call1_v0_apply, val_main_call1_cst_apply, val_main_v113_apply,
    val_main_v110_apply, dotl2_at, bias2_at, dotr2_at]
  simp only [Ideal.maximumf_def, Ideal.addf_def, Ideal.ofBits_def]
  unfold conv
  with_reducible rfl

/-- The clamped neighbour count of node n, read anywhere in row n of its broadcast. -/
theorem cnt3_at (a2 : (⟨S2x2x1600000, .i32⟩ : BufTy).Contents (Elt Ideal)) (n : Fin 100000) (k : Fin 128) :
    val_main_v144 (F := Ideal) a2 (ix2 n k) = max (val_main_v140 (F := Ideal) a2 (ix1 n)) one := by
  have e : idx_main_v143 (idx_main_v144 (ix2 n k)) = ix1 n := funext fun a => match a with | ⟨0, _⟩ => rfl
  rw [val_main_v144_apply, val_main_v143_apply, val_main_v142_apply, val_main_v141_apply, val_main_cst_21_apply,
    Ideal.maximumf_def, Ideal.ofBits_def, e]

/-- Entry (n, j) of the first product: row n of the neighbour means against column j of the first weight matrix. -/
theorem dotl3_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (n : Fin 100000) (j : Fin 128) :
    val_main_v147 (F := Ideal) a0 a2 a6 (ix2 n j)
      = ∑ k : Fin 128, Ideal.div (val_main_v136 (F := Ideal) a0 a2 (ix2 n k)) (max (val_main_v140 (F := Ideal) a2 (ix1 n)) one) * val_main_v146 (F := Ideal) a6 (ix2 k j) := by
  rw [val_main_v147_apply]
  refine Finset.sum_congr rfl fun k _ => ?_
  have el : lidx_main_v147 (ix2 n j) k = ix2 n k := funext fun a => match a with | ⟨0, _⟩ => rfl | ⟨1, _⟩ => rfl
  have er : ridx_main_v147 (ix2 n j) k = ix2 k j := funext fun a => match a with | ⟨0, _⟩ => rfl | ⟨1, _⟩ => rfl
  rw [el, er, val_main_v145_apply, cnt3_at, Ideal.hostDivf_def]

/-- Entry (n, j) of the broadcast bias is entry j of the bias vector. -/
theorem bias3_at (a7 : (⟨S2x128, .f32⟩ : BufTy).Contents (Elt Ideal)) (n : Fin 100000) (j : Fin 128) :
    val_main_v149 (F := Ideal) a7 (ix2 n j) = val_main_v120 (F := Ideal) a7 (ix1 j) := by
  have e : idx_main_v148 (idx_main_v149 (ix2 n j)) = ix1 j := funext fun a => match a with | ⟨0, _⟩ => rfl
  rw [val_main_v149_apply, val_main_v148_apply, e]

/-- Entry (n, j) of the second product: row n of the node features against column j of the second weight matrix. -/
theorem dotr3_at (a0 : (⟨S100000x128, .f32⟩ : BufTy).Contents (Elt Ideal)) (a8 : (⟨S2x128x128, .f32⟩ : BufTy).Contents (Elt Ideal)) (n : Fin 100000) (j : Fin 128) :
    val_main_v152 (F := Ideal) a0 a8 (ix2 n j) = ∑ k : Fin 128, a0 (ix2 n k) * val_main_v151 (F := Ideal) a8 (ix2 k j) := by
  rw [val_main_v152_apply]
  refine Finset.sum_congr rfl fun k _ => ?_
  have el : lidx_main_v152 (ix2 n j) k = ix2 n k := funext fun a => match a with | ⟨0, _⟩ => rfl | ⟨1, _⟩ => rfl
  have er : ridx_main_v152 (ix2 n j) k = ix2 k j := funext fun a => match a with | ⟨0, _⟩ => rfl | ⟨1, _⟩ => rfl
  rw [el, er]

/-- The second tree branch at (n, j): the rectified convolution of the input features over the second tree graph. -/
theorem t1_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (n : Fin 100000) (j : Fin 128) :
    val_main_v154 (F := Ideal) a0 a2 a6 a7 a8 (ix2 n j)
      = max (conv (fun k => val_main_v136 (F := Ideal) a0 a2 (ix2 n k)) (fun k => a0 (ix2 n k)) (val_main_v140 (F := Ideal) a2 (ix1 n))
        (fun k j' => val_main_v146 (F := Ideal) a6 (ix2 k j')) (fun k j' => val_main_v151 (F := Ideal) a8 (ix2 k j')) (fun j' => val_main_v120 (F := Ideal) a7 (ix1 j')) j) zero := by
  rw [val_main_v154_apply, val_main_call2_v0_apply, val_main_call2_cst_apply, val_main_v153_apply,
    val_main_v150_apply, dotl3_at, bias3_at, dotr3_at]
  simp only [Ideal.maximumf_def, Ideal.addf_def, Ideal.ofBits_def]
  unfold conv
  with_reducible rfl

/-! ## The two-way softmax of the gate scores -/

/-- A fold over the two-element index set, written out. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The reduced index (n, 0) with coordinate k put back on the last axis is (n, 0, k). -/
theorem lift_ix3 (h : S100000x1x2.Reduces [2] S100000x1) (n : Fin 100000) (k : Fin (S100000x1x2.size 2)) :
    h.lift (ix2 n (0 : Fin 1)) k = ix3 n (0 : Fin 1) (⟨k.val, k.isLt⟩ : Fin 2) := by
  funext c; apply Fin.ext
  match c with
  | ⟨0, _⟩ => rfl
  | ⟨1, _⟩ => rfl
  | ⟨2, _⟩ => rfl

/-- From minus infinity, the maximum over the last axis (of extent two) at (n, 0) is the larger of the two entries. -/
theorem reduceMax_pair (y : (⟨S100000x1x2, .f32⟩ : BufTy).Contents (Elt Ideal))
    (init : (⟨S_, .f32⟩ : BufTy).Contents (Elt Ideal)) (hinit : ∀ i, init i = ninf) (n : Fin 100000) :
    Host.reduce (FloatOps.maximumf (F := Ideal) (φ := .f32)) y init reducesTo_S100000x1x2_S100000x1_d2 h_S_ (ix2 n (0 : Fin 1))
      = max (y (ix3 n (0 : Fin 1) (0 : Fin 2))) (y (ix3 n (0 : Fin 1) (1 : Fin 2))) := by
  have h : S100000x1x2.Reduces [2] S100000x1 := by decide
  rw [Host.reduce_eq_fold_single (FloatOps.maximumf (F := Ideal) (φ := .f32)) y init reducesTo_S100000x1x2_S100000x1_d2 h h_S_, hinit]
  have e := fold_univ_fin2 (max : Ideal .f32 → Ideal .f32 → Ideal .f32) ninf (fun k : Fin 2 => y (ix3 n (0 : Fin 1) k))
  rw [max_comm (y (ix3 n (0 : Fin 1) (1 : Fin 2))) ninf, ninf_max] at e
  refine Eq.trans ?_ e
  have hf : (y ∘ h.lift (ix2 n (0 : Fin 1))) = fun k : Fin 2 => y (ix3 n (0 : Fin 1) k) :=
    funext fun k => congrArg y (lift_ix3 h n k)
  exact congrArg (fun f => Finset.fold max ninf f (Finset.univ : Finset (Fin 2))) hf

/-- The joined pair at (n, 0, 0) is the first piece at (n, 0, 0). -/
theorem concat_left (y0 y1 : (⟨S100000x1x1, .f32⟩ : BufTy).Contents (Elt Ideal)) (n : Fin 100000) :
    concatenate S100000x1x2 2 [⟨S100000x1x1, y0⟩, ⟨S100000x1x1, y1⟩] concatenates_S100000x1x1_S100000x1x1_S100000x1x2_d2
        (ix3 n (0 : Fin 1) (0 : Fin 2))
      = y0 (ix3 n (0 : Fin 1) (0 : Fin 1)) :=
  concatenate_pair_apply_left 2 y0 y1 concatenates_S100000x1x1_S100000x1x1_S100000x1x2_d2 _ rfl _ (fun b => match b with
    | ⟨0, _⟩ => rfl
    | ⟨1, _⟩ => rfl
    | ⟨2, _⟩ => rfl)

/-- The joined pair at (n, 0, 1) is the second piece at (n, 0, 0). -/
theorem concat_right (y0 y1 : (⟨S100000x1x1, .f32⟩ : BufTy).Contents (Elt Ideal)) (n : Fin 100000) :
    concatenate S100000x1x2 2 [⟨S100000x1x1, y0⟩, ⟨S100000x1x1, y1⟩] concatenates_S100000x1x1_S100000x1x1_S100000x1x2_d2
        (ix3 n (0 : Fin 1) (1 : Fin 2))
      = y1 (ix3 n (0 : Fin 1) (0 : Fin 1)) :=
  concatenate_pair_apply_right 2 y0 y1 concatenates_S100000x1x1_S100000x1x1_S100000x1x2_d2 _ rfl rfl _ (fun b hb => by
    match b, hb with
    | ⟨0, _⟩, _ => rfl
    | ⟨1, _⟩, _ => rfl
    | ⟨2, _⟩, hb => exact absurd rfl hb) rfl

/-- The gate score of the first branch at node n: its row against the gate vector, plus the gate bias. -/
theorem score0_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) :
    val_main_v163 (F := Ideal) a0 a2 a6 a7 a8 a9 a10 (ix2 n (0 : Fin 1))
      = score (fun k => val_main_v114 (F := Ideal) a0 a2 a6 a7 a8 (ix2 n k)) (fun k => val_main_v156 (F := Ideal) a9 (ix2 (0 : Fin 1) k)) (val_main_v160 (F := Ideal) a10 (ix1 (0 : Fin 1))) := by
  have hd : val_main_v158 (F := Ideal) a0 a2 a6 a7 a8 a9 (ix2 n (0 : Fin 1)) = ∑ k : Fin 128, val_main_v114 (F := Ideal) a0 a2 a6 a7 a8 (ix2 n k) * val_main_v156 (F := Ideal) a9 (ix2 (0 : Fin 1) k) := by
    rw [val_main_v158_apply]
    refine Finset.sum_congr rfl fun k _ => ?_
    have el : lidx_main_v158 (ix2 n (0 : Fin 1)) k = ix2 n k := funext fun a => match a with | ⟨0, _⟩ => rfl | ⟨1, _⟩ => rfl
    have er : idx_main_v157 (ridx_main_v158 (ix2 n (0 : Fin 1)) k) = ix2 (0 : Fin 1) k := funext fun a => match a with | ⟨0, _⟩ => rfl | ⟨1, _⟩ => rfl
    rw [el, val_main_v157_apply, er]
  have hb : val_main_v162 (F := Ideal) a10 (ix2 n (0 : Fin 1)) = val_main_v160 (F := Ideal) a10 (ix1 (0 : Fin 1)) := by
    have e : idx_main_v161 (idx_main_v162 (ix2 n (0 : Fin 1))) = ix1 (0 : Fin 1) := funext fun a => match a with | ⟨0, _⟩ => rfl
    rw [val_main_v162_apply, val_main_v161_apply, e]
  rw [val_main_v163_apply, hd, hb, Ideal.addf_def]
  unfold score
  with_reducible rfl

/-- The gate score of the second branch at node n: its row against the gate vector, plus the gate bias. -/
theorem score1_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) :
    val_main_v172 (F := Ideal) a0 a2 a6 a7 a8 a9 a10 (ix2 n (0 : Fin 1))
      = score (fun k => val_main_v154 (F := Ideal) a0 a2 a6 a7 a8 (ix2 n k)) (fun k => val_main_v165 (F := Ideal) a9 (ix2 (0 : Fin 1) k)) (val_main_v169 (F := Ideal) a10 (ix1 (0 : Fin 1))) := by
  have hd : val_main_v167 (F := Ideal) a0 a2 a6 a7 a8 a9 (ix2 n (0 : Fin 1)) = ∑ k : Fin 128, val_main_v154 (F := Ideal) a0 a2 a6 a7 a8 (ix2 n k) * val_main_v165 (F := Ideal) a9 (ix2 (0 : Fin 1) k) := by
    rw [val_main_v167_apply]
    refine Finset.sum_congr rfl fun k _ => ?_
    have el : lidx_main_v167 (ix2 n (0 : Fin 1)) k = ix2 n k := funext fun a => match a with | ⟨0, _⟩ => rfl | ⟨1, _⟩ => rfl
    have er : idx_main_v166 (ridx_main_v167 (ix2 n (0 : Fin 1)) k) = ix2 (0 : Fin 1) k := funext fun a => match a with | ⟨0, _⟩ => rfl | ⟨1, _⟩ => rfl
    rw [el, val_main_v166_apply, er]
  have hb : val_main_v171 (F := Ideal) a10 (ix2 n (0 : Fin 1)) = val_main_v169 (F := Ideal) a10 (ix1 (0 : Fin 1)) := by
    have e : idx_main_v170 (idx_main_v171 (ix2 n (0 : Fin 1))) = ix1 (0 : Fin 1) := funext fun a => match a with | ⟨0, _⟩ => rfl
    rw [val_main_v171_apply, val_main_v170_apply, e]
  rw [val_main_v172_apply, hd, hb, Ideal.addf_def]
  unfold score
  with_reducible rfl

/-- The stacked scores at (n, 0, 0): the first branch's score. -/
theorem cat0_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) :
    val_main_v175 (F := Ideal) a0 a2 a6 a7 a8 a9 a10 (ix3 n (0 : Fin 1) (0 : Fin 2)) = val_main_v163 (F := Ideal) a0 a2 a6 a7 a8 a9 a10 (ix2 n (0 : Fin 1)) := by
  have e : idx_main_v173 (ix3 n (0 : Fin 1) (0 : Fin 1)) = ix2 n (0 : Fin 1) := funext fun a => match a with | ⟨0, _⟩ => rfl | ⟨1, _⟩ => rfl
  unfold val_main_v175
  rw [concat_left, val_main_v173_apply, e]

/-- The stacked scores at (n, 0, 1): the second branch's score. -/
theorem cat1_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) :
    val_main_v175 (F := Ideal) a0 a2 a6 a7 a8 a9 a10 (ix3 n (0 : Fin 1) (1 : Fin 2)) = val_main_v172 (F := Ideal) a0 a2 a6 a7 a8 a9 a10 (ix2 n (0 : Fin 1)) := by
  have e : idx_main_v174 (ix3 n (0 : Fin 1) (0 : Fin 1)) = ix2 n (0 : Fin 1) := funext fun a => match a with | ⟨0, _⟩ => rfl | ⟨1, _⟩ => rfl
  unfold val_main_v175
  rw [concat_right, val_main_v174_apply, e]

/-- The larger of the two scores at node n. -/
theorem smax_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) :
    val_main_v178 (F := Ideal) a0 a2 a6 a7 a8 a9 a10 (ix2 n (0 : Fin 1)) = max (val_main_v163 (F := Ideal) a0 a2 a6 a7 a8 a9 a10 (ix2 n (0 : Fin 1))) (val_main_v172 (F := Ideal) a0 a2 a6 a7 a8 a9 a10 (ix2 n (0 : Fin 1))) := by
  rw [val_main_v178_apply, val_main_v177_apply, val_main_cst_23_apply, Ideal.maximumf_def, Ideal.ofBits_def, ninf_max]
  unfold val_main_v176
  rw [reduceMax_pair _ (val_main_cst_22 (F := Ideal)) (fun _ => rfl) n, cat0_at, cat1_at]

/-- The first exponential at node n. -/
theorem exp0_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) :
    val_main_v182 (F := Ideal) a0 a2 a6 a7 a8 a9 a10 (ix3 n (0 : Fin 1) (0 : Fin 2)) = Ideal.exp (val_main_v163 (F := Ideal) a0 a2 a6 a7 a8 a9 a10 (ix2 n (0 : Fin 1)) - max (val_main_v163 (F := Ideal) a0 a2 a6 a7 a8 a9 a10 (ix2 n (0 : Fin 1))) (val_main_v172 (F := Ideal) a0 a2 a6 a7 a8 a9 a10 (ix2 n (0 : Fin 1)))) := by
  have e : idx_main_v179 (idx_main_v180 (ix3 n (0 : Fin 1) (0 : Fin 2))) = ix2 n (0 : Fin 1) := funext fun a => match a with | ⟨0, _⟩ => rfl | ⟨1, _⟩ => rfl
  rw [val_main_v182_apply, val_main_v181_apply, val_main_v180_apply, val_main_v179_apply, e, smax_at, cat0_at,
    Ideal.hostUnary_exp_def, Ideal.subf_def]

/-- The second exponential at node n. -/
theorem exp1_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) :
    val_main_v182 (F := Ideal) a0 a2 a6 a7 a8 a9 a10 (ix3 n (0 : Fin 1) (1 : Fin 2)) = Ideal.exp (val_main_v172 (F := Ideal) a0 a2 a6 a7 a8 a9 a10 (ix2 n (0 : Fin 1)) - max (val_main_v163 (F := Ideal) a0 a2 a6 a7 a8 a9 a10 (ix2 n (0 : Fin 1))) (val_main_v172 (F := Ideal) a0 a2 a6 a7 a8 a9 a10 (ix2 n (0 : Fin 1)))) := by
  have e : idx_main_v179 (idx_main_v180 (ix3 n (0 : Fin 1) (1 : Fin 2))) = ix2 n (0 : Fin 1) := funext fun a => match a with | ⟨0, _⟩ => rfl | ⟨1, _⟩ => rfl
  rw [val_main_v182_apply, val_main_v181_apply, val_main_v180_apply, val_main_v179_apply, e, smax_at, cat1_at,
    Ideal.hostUnary_exp_def, Ideal.subf_def]

/-- The softmax denominator at node n: the two exponentials, summed from the zero word. -/
theorem den_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) :
    val_main_v183 (F := Ideal) a0 a2 a6 a7 a8 a9 a10 (ix2 n (0 : Fin 1)) = Ideal.exp (val_main_v163 (F := Ideal) a0 a2 a6 a7 a8 a9 a10 (ix2 n (0 : Fin 1)) - max (val_main_v163 (F := Ideal) a0 a2 a6 a7 a8 a9 a10 (ix2 n (0 : Fin 1))) (val_main_v172 (F := Ideal) a0 a2 a6 a7 a8 a9 a10 (ix2 n (0 : Fin 1)))) + Ideal.exp (val_main_v172 (F := Ideal) a0 a2 a6 a7 a8 a9 a10 (ix2 n (0 : Fin 1)) - max (val_main_v163 (F := Ideal) a0 a2 a6 a7 a8 a9 a10 (ix2 n (0 : Fin 1))) (val_main_v172 (F := Ideal) a0 a2 a6 a7 a8 a9 a10 (ix2 n (0 : Fin 1)))) := by
  have e0 : idx_main_v183 (ix2 n (0 : Fin 1)) (0 : Fin 2) = ix3 n (0 : Fin 1) (0 : Fin 2) := funext fun a => match a with | ⟨0, _⟩ => rfl | ⟨1, _⟩ => rfl | ⟨2, _⟩ => rfl
  have e1 : idx_main_v183 (ix2 n (0 : Fin 1)) (1 : Fin 2) = ix3 n (0 : Fin 1) (1 : Fin 2) := funext fun a => match a with | ⟨0, _⟩ => rfl | ⟨1, _⟩ => rfl | ⟨2, _⟩ => rfl
  rw [val_main_v183_apply, Fin.sum_univ_two, e0, e1, exp0_at, exp1_at, val_main_cst_24_apply, Ideal.ofBits_def, zero_add']

/-- The first softmax weight at node n. -/
theorem w0_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) :
    val_main_v186 (F := Ideal) a0 a2 a6 a7 a8 a9 a10 (ix3 n (0 : Fin 1) (0 : Fin 2)) = Ideal.div (Ideal.exp (val_main_v163 (F := Ideal) a0 a2 a6 a7 a8 a9 a10 (ix2 n (0 : Fin 1)) - max (val_main_v163 (F := Ideal) a0 a2 a6 a7 a8 a9 a10 (ix2 n (0 : Fin 1))) (val_main_v172 (F := Ideal) a0 a2 a6 a7 a8 a9 a10 (ix2 n (0 : Fin 1))))) (Ideal.exp (val_main_v163 (F := Ideal) a0 a2 a6 a7 a8 a9 a10 (ix2 n (0 : Fin 1)) - max (val_main_v163 (F := Ideal) a0 a2 a6 a7 a8 a9 a10 (ix2 n (0 : Fin 1))) (val_main_v172 (F := Ideal) a0 a2 a6 a7 a8 a9 a10 (ix2 n (0 : Fin 1)))) + Ideal.exp (val_main_v172 (F := Ideal) a0 a2 a6 a7 a8 a9 a10 (ix2 n (0 : Fin 1)) - max (val_main_v163 (F := Ideal) a0 a2 a6 a7 a8 a9 a10 (ix2 n (0 : Fin 1))) (val_main_v172 (F := Ideal) a0 a2 a6 a7 a8 a9 a10 (ix2 n (0 : Fin 1))))) := by
  have e : idx_main_v184 (idx_main_v185 (ix3 n (0 : Fin 1) (0 : Fin 2))) = ix2 n (0 : Fin 1) := funext fun a => match a with | ⟨0, _⟩ => rfl | ⟨1, _⟩ => rfl
  rw [val_main_v186_apply, val_main_v185_apply, val_main_v184_apply, e, den_at, exp0_at, Ideal.hostDivf_def]

/-- The second softmax weight at node n. -/
theorem w1_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) :
    val_main_v186 (F := Ideal) a0 a2 a6 a7 a8 a9 a10 (ix3 n (0 : Fin 1) (1 : Fin 2)) = Ideal.div (Ideal.exp (val_main_v172 (F := Ideal) a0 a2 a6 a7 a8 a9 a10 (ix2 n (0 : Fin 1)) - max (val_main_v163 (F := Ideal) a0 a2 a6 a7 a8 a9 a10 (ix2 n (0 : Fin 1))) (val_main_v172 (F := Ideal) a0 a2 a6 a7 a8 a9 a10 (ix2 n (0 : Fin 1))))) (Ideal.exp (val_main_v163 (F := Ideal) a0 a2 a6 a7 a8 a9 a10 (ix2 n (0 : Fin 1)) - max (val_main_v163 (F := Ideal) a0 a2 a6 a7 a8 a9 a10 (ix2 n (0 : Fin 1))) (val_main_v172 (F := Ideal) a0 a2 a6 a7 a8 a9 a10 (ix2 n (0 : Fin 1)))) + Ideal.exp (val_main_v172 (F := Ideal) a0 a2 a6 a7 a8 a9 a10 (ix2 n (0 : Fin 1)) - max (val_main_v163 (F := Ideal) a0 a2 a6 a7 a8 a9 a10 (ix2 n (0 : Fin 1))) (val_main_v172 (F := Ideal) a0 a2 a6 a7 a8 a9 a10 (ix2 n (0 : Fin 1))))) := by
  have e : idx_main_v184 (idx_main_v185 (ix3 n (0 : Fin 1) (1 : Fin 2))) = ix2 n (0 : Fin 1) := funext fun a => match a with | ⟨0, _⟩ => rfl | ⟨1, _⟩ => rfl
  rw [val_main_v186_apply, val_main_v185_apply, val_main_v184_apply, e, den_at, exp1_at, Ideal.hostDivf_def]

/-- The first weight, sliced out and broadcast along the row. -/
theorem g0_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) (j : Fin 128) :
    val_main_v189 (F := Ideal) a0 a2 a6 a7 a8 a9 a10 (ix2 n j) = val_main_v186 (F := Ideal) a0 a2 a6 a7 a8 a9 a10 (ix3 n (0 : Fin 1) (0 : Fin 2)) := by
  have e : idx_main_v187 (idx_main_v188 (idx_main_v189 (ix2 n j))) = ix3 n (0 : Fin 1) (0 : Fin 2) :=
    funext fun a => Fin.ext (by
      match a with
      | ⟨0, _⟩ => show (n.val * 1 + 0) / 1 = n.val; omega
      | ⟨1, _⟩ => rfl
      | ⟨2, _⟩ => rfl)
  rw [val_main_v189_apply, val_main_v188_apply, val_main_v187_apply, e]

/-- The second weight, sliced out and broadcast along the row. -/
theorem g1_at (a0 : (⟨S100000x128, .f32⟩ : BufTy).Contents (Elt Ideal)) (a2 : (⟨S2x2x1600000, .i32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) (j : Fin 128) :
    val_main_v193 (F := Ideal) a0 a2 a6 a7 a8 a9 a10 (ix2 n j) = val_main_v186 (F := Ideal) a0 a2 a6 a7 a8 a9 a10 (ix3 n (0 : Fin 1) (1 : Fin 2)) := by
  have e : idx_main_v191 (idx_main_v192 (idx_main_v193 (ix2 n j))) = ix3 n (0 : Fin 1) (1 : Fin 2) :=
    funext fun a => Fin.ext (by
      match a with
      | ⟨0, _⟩ => show (n.val * 1 + 0) / 1 = n.val; omega
      | ⟨1, _⟩ => rfl
      | ⟨2, _⟩ => rfl)
  rw [val_main_v193_apply, val_main_v192_apply, val_main_v191_apply, e]

/-- The result at (n, j): the second layer's output plus the two tree branches mixed by the softmax of their scores. -/
theorem out_at (a0 : (⟨S100000x128, .f32⟩ : BufTy).Contents (Elt Ideal)) (a1 : (⟨S2x1600000, .i32⟩ : BufTy).Contents (Elt Ideal)) (a2 : (⟨S2x2x1600000, .i32⟩ : BufTy).Contents (Elt Ideal)) (a3 : (⟨S2x128x128, .f32⟩ : BufTy).Contents (Elt Ideal)) (a4 : (⟨S2x128, .f32⟩ : BufTy).Contents (Elt Ideal)) (a5 : (⟨S2x128x128, .f32⟩ : BufTy).Contents (Elt Ideal)) (a6 : (⟨S2x128x128, .f32⟩ : BufTy).Contents (Elt Ideal)) (a7 : (⟨S2x128, .f32⟩ : BufTy).Contents (Elt Ideal)) (a8 : (⟨S2x128x128, .f32⟩ : BufTy).Contents (Elt Ideal)) (a9 : (⟨S2x1x128, .f32⟩ : BufTy).Contents (Elt Ideal)) (a10 : (⟨S2x1, .f32⟩ : BufTy).Contents (Elt Ideal)) (n : Fin 100000) (j : Fin 128) :
    val_main_v198 (F := Ideal) a0 a1 a2 a3 a4 a5 a6 a7 a8 a9 a10 (ix2 n j)
      = val_main_v74 (F := Ideal) a0 a1 a3 a4 a5 (ix2 n j)
        + gate (val_main_v114 (F := Ideal) a0 a2 a6 a7 a8 (ix2 n j)) (val_main_v154 (F := Ideal) a0 a2 a6 a7 a8 (ix2 n j))
            (score (fun k => val_main_v114 (F := Ideal) a0 a2 a6 a7 a8 (ix2 n k)) (fun k => val_main_v156 (F := Ideal) a9 (ix2 (0 : Fin 1) k)) (val_main_v160 (F := Ideal) a10 (ix1 (0 : Fin 1))))
            (score (fun k => val_main_v154 (F := Ideal) a0 a2 a6 a7 a8 (ix2 n k)) (fun k => val_main_v165 (F := Ideal) a9 (ix2 (0 : Fin 1) k)) (val_main_v169 (F := Ideal) a10 (ix1 (0 : Fin 1)))) := by
  rw [val_main_v198_apply, val_main_v197_apply, val_main_v196_apply, val_main_cst_25_apply, val_main_v195_apply,
    val_main_v190_apply, val_main_v194_apply, g0_at, g1_at, w0_at, w1_at, score0_at, score1_at]
  simp only [Ideal.addf_def, Ideal.mulf_def, Ideal.ofBits_def]
  rw [one_mul']
  unfold gate
  with_reducible rfl

end Cert.RefValue

end
-- ==== Proof.KChain.lean ====
/-
  The idealized kernel's result array is the reference's result, as one function of the arguments.

  The buffers the first kernel reads hold what the first host stretch computed from the arguments: the same
  compositions the reference applies, the tree edge lists being equal though sliced differently, a count column read at
  (n, 0) being the count vector at n, a bias row read at (0, j) the bias vector at j. So the first kernel's two output
  arrays are, entry by entry, the reference's first-layer output and its two tree branches mixed by their gate.
  The second stretch aggregates the first-layer output along the same main edges, so the second kernel's result is
  the reference's second-layer convolution plus the mixed branches, which is the reference's result (its final
  product with the float one changes nothing).
-/
import proofs.«150327_j27470610825587_2_alg».proof.Proof.Gen.KernelIdeal.Frame
import proofs.«150327_j27470610825587_2_alg».proof.Proof.KRegion0
import proofs.«150327_j27470610825587_2_alg».proof.Proof.KRegion1
import proofs.«150327_j27470610825587_2_alg».proof.Proof.KHostDefs
import proofs.«150327_j27470610825587_2_alg».proof.Proof.KHost0a
import proofs.«150327_j27470610825587_2_alg».proof.Proof.KHost0b
import proofs.«150327_j27470610825587_2_alg».proof.Proof.KHost0c
import proofs.«150327_j27470610825587_2_alg».proof.Proof.KHost1
import proofs.«150327_j27470610825587_2_alg».proof.Proof.KEdges
import proofs.«150327_j27470610825587_2_alg».proof.Proof.LibLayout
import proofs.«150327_j27470610825587_2_alg».proof.Proof.RefValue

set_option maxRecDepth 16384

noncomputable section

namespace Cert.KernelIdeal.Chain

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-! ## What the first kernel finds -/

theorem v1_x : V1 m ρ c main_arg0 = (m ((c : Thread nD τ).loc main_arg0)) := Cert.KernelIdeal.Host0a.x (W0 m ρ c)
theorem v1_agg : V1 m ρ c main_v18 = Cert.ReferenceIdeal.Read.val_main_v19 (F := Ideal) (m ((c : Thread nD τ).loc main_arg0)) (m ((c : Thread nD τ).loc main_arg1)) :=
  (Cert.KernelIdeal.Host0a.agg_main (W0 m ρ c)).trans (Cert.KernelIdeal.HostDefs.ref_agg_main0 (m ((c : Thread nD τ).loc main_arg0)) (m ((c : Thread nD τ).loc main_arg1))).symm
/-- The main edges' count column at row n is the reference's count of node n. -/
theorem v1_cnt (n : Fin 100000) : V1 m ρ c main_v8 (ix2 n (0 : Fin 1)) = Cert.ReferenceIdeal.Read.val_main_v23 (F := Ideal) (m ((c : Thread nD τ).loc main_arg1)) (ix1 n) :=
  (congrFun (Cert.KernelIdeal.Host0a.cnt_main (W0 m ρ c)) (ix2 n (0 : Fin 1))).trans ((Cert.LibLayout.shapeCast_a_a1_apply _ _ n).trans (congrFun (Cert.KernelIdeal.HostDefs.ref_cnt_main0 (m ((c : Thread nD τ).loc main_arg1))).symm (ix1 n)))

theorem v1_aggt0 : V1 m ρ c main_v32 = Cert.ReferenceIdeal.Read.val_main_v96 (F := Ideal) (m ((c : Thread nD τ).loc main_arg0)) (m ((c : Thread nD τ).loc main_arg2)) :=
  (Cert.KernelIdeal.Host0a.agg_t0 (W0 m ρ c)).trans ((congrArg₂ (Cert.KernelIdeal.HostDefs.aggOf (m ((c : Thread nD τ).loc main_arg0))) (Cert.KernelIdeal.Edges.src0 (m ((c : Thread nD τ).loc main_arg2))) (Cert.KernelIdeal.Edges.dst0 (m ((c : Thread nD τ).loc main_arg2)))).trans (Cert.KernelIdeal.HostDefs.ref_agg_tree0 (m ((c : Thread nD τ).loc main_arg0)) (m ((c : Thread nD τ).loc main_arg2))).symm)
/-- The first tree branch's count column at row n. -/
theorem v1_cntt0 (n : Fin 100000) : V1 m ρ c main_v37 (ix2 n (0 : Fin 1)) = Cert.ReferenceIdeal.Read.val_main_v100 (F := Ideal) (m ((c : Thread nD τ).loc main_arg2)) (ix1 n) :=
  (congrFun (Cert.KernelIdeal.Host0a.cnt_t0 (W0 m ρ c)) (ix2 n (0 : Fin 1))).trans ((Cert.LibLayout.shapeCast_a_a1_apply _ _ n).trans (congrFun ((congrArg Cert.KernelIdeal.HostDefs.cntOf (Cert.KernelIdeal.Edges.dst0 (m ((c : Thread nD τ).loc main_arg2)))).trans (Cert.KernelIdeal.HostDefs.ref_cnt_tree0 (m ((c : Thread nD τ).loc main_arg2))).symm) (ix1 n)))

theorem v1_aggt1 : V1 m ρ c main_v51 = Cert.ReferenceIdeal.Read.val_main_v136 (F := Ideal) (m ((c : Thread nD τ).loc main_arg0)) (m ((c : Thread nD τ).loc main_arg2)) :=
  (Cert.KernelIdeal.Host0a.agg_t1 (W0 m ρ c)).trans ((congrArg₂ (Cert.KernelIdeal.HostDefs.aggOf (m ((c : Thread nD τ).loc main_arg0))) (Cert.KernelIdeal.Edges.src1 (m ((c : Thread nD τ).loc main_arg2))) (Cert.KernelIdeal.Edges.dst1 (m ((c : Thread nD τ).loc main_arg2)))).trans (Cert.KernelIdeal.HostDefs.ref_agg_tree1 (m ((c : Thread nD τ).loc main_arg0)) (m ((c : Thread nD τ).loc main_arg2))).symm)
/-- The second tree branch's count column at row n. -/
theorem v1_cntt1 (n : Fin 100000) : V1 m ρ c main_v56 (ix2 n (0 : Fin 1)) = Cert.ReferenceIdeal.Read.val_main_v140 (F := Ideal) (m ((c : Thread nD τ).loc main_arg2)) (ix1 n) :=
  (congrFun (Cert.KernelIdeal.Host0b.cnt_t1 (W0 m ρ c)) (ix2 n (0 : Fin 1))).trans ((Cert.LibLayout.shapeCast_a_a1_apply _ _ n).trans (congrFun ((congrArg Cert.KernelIdeal.HostDefs.cntOf (Cert.KernelIdeal.Edges.dst1 (m ((c : Thread nD τ).loc main_arg2)))).trans (Cert.KernelIdeal.HostDefs.ref_cnt_tree1 (m ((c : Thread nD τ).loc main_arg2))).symm) (ix1 n)))

theorem v1_wl0 : V1 m ρ c main_v59 = Cert.ReferenceIdeal.Read.val_main_v29 (F := Ideal) (m ((c : Thread nD τ).loc main_arg3)) := Cert.KernelIdeal.Host0b.wl0 (W0 m ρ c)
theorem v1_wr0 : V1 m ρ c main_v62 = Cert.ReferenceIdeal.Read.val_main_v34 (F := Ideal) (m ((c : Thread nD τ).loc main_arg5)) := Cert.KernelIdeal.Host0b.wr0 (W0 m ρ c)
/-- The first layer's bias row at column j is the bias vector at j. -/
theorem v1_bl0 : (fun j' : Fin 128 => V1 m ρ c main_v65 (ix2 (0 : Fin 1) j')) = fun j' => Cert.ReferenceIdeal.Read.val_main_v3 (F := Ideal) (m ((c : Thread nD τ).loc main_arg4)) (ix1 j') :=
  funext fun j' => (congrFun (Cert.KernelIdeal.Host0b.bl0 (W0 m ρ c)) (ix2 (0 : Fin 1) j')).trans (Cert.LibLayout.shapeCast_b_1b_apply _ _ j')

theorem v1_twl0 : V1 m ρ c main_v68 = Cert.ReferenceIdeal.Read.val_main_v106 (F := Ideal) (m ((c : Thread nD τ).loc main_arg6)) := Cert.KernelIdeal.Host0b.twl0 (W0 m ρ c)
theorem v1_twr0 : V1 m ρ c main_v71 = Cert.ReferenceIdeal.Read.val_main_v111 (F := Ideal) (m ((c : Thread nD τ).loc main_arg8)) := Cert.KernelIdeal.Host0b.twr0 (W0 m ρ c)
/-- The first tree branch's bias row. -/
theorem v1_tbl0 : (fun j' : Fin 128 => V1 m ρ c main_v74 (ix2 (0 : Fin 1) j')) = fun j' => Cert.ReferenceIdeal.Read.val_main_v80 (F := Ideal) (m ((c : Thread nD τ).loc main_arg7)) (ix1 j') :=
  funext fun j' => (congrFun (Cert.KernelIdeal.Host0b.tbl0 (W0 m ρ c)) (ix2 (0 : Fin 1) j')).trans (Cert.LibLayout.shapeCast_b_1b_apply _ _ j')

theorem v1_twl1 : V1 m ρ c main_v77 = Cert.ReferenceIdeal.Read.val_main_v146 (F := Ideal) (m ((c : Thread nD τ).loc main_arg6)) := Cert.KernelIdeal.Host0c.twl1 (W0 m ρ c)
theorem v1_twr1 : V1 m ρ c main_v80 = Cert.ReferenceIdeal.Read.val_main_v151 (F := Ideal) (m ((c : Thread nD τ).loc main_arg8)) := Cert.KernelIdeal.Host0c.twr1 (W0 m ρ c)
/-- The second tree branch's bias row. -/
theorem v1_tbl1 : (fun j' : Fin 128 => V1 m ρ c main_v83 (ix2 (0 : Fin 1) j')) = fun j' => Cert.ReferenceIdeal.Read.val_main_v120 (F := Ideal) (m ((c : Thread nD τ).loc main_arg7)) (ix1 j') :=
  funext fun j' => (congrFun (Cert.KernelIdeal.Host0c.tbl1 (W0 m ρ c)) (ix2 (0 : Fin 1) j')).trans (Cert.LibLayout.shapeCast_b_1b_apply _ _ j')

theorem v1_gw0 : V1 m ρ c main_v85 = Cert.ReferenceIdeal.Read.val_main_v156 (F := Ideal) (m ((c : Thread nD τ).loc main_arg9)) := Cert.KernelIdeal.Host0c.gw0 (W0 m ρ c)
theorem v1_gw1 : V1 m ρ c main_v87 = Cert.ReferenceIdeal.Read.val_main_v165 (F := Ideal) (m ((c : Thread nD τ).loc main_arg9)) := Cert.KernelIdeal.Host0c.gw1 (W0 m ρ c)
/-- The first gate bias, a one by one array, is the bias vector's one entry. -/
theorem v1_gb0 : V1 m ρ c main_v90 (ix2 (0 : Fin 1) (0 : Fin 1)) = Cert.ReferenceIdeal.Read.val_main_v160 (F := Ideal) (m ((c : Thread nD τ).loc main_arg10)) (ix1 (0 : Fin 1)) :=
  (congrFun (Cert.KernelIdeal.Host0c.gb0 (W0 m ρ c)) (ix2 (0 : Fin 1) (0 : Fin 1))).trans (Cert.LibLayout.shapeCast_b_1b_apply _ _ (0 : Fin 1))
/-- The second gate bias likewise. -/
theorem v1_gb1 : V1 m ρ c main_v93 (ix2 (0 : Fin 1) (0 : Fin 1)) = Cert.ReferenceIdeal.Read.val_main_v169 (F := Ideal) (m ((c : Thread nD τ).loc main_arg10)) (ix1 (0 : Fin 1)) :=
  (congrFun (Cert.KernelIdeal.Host0c.gb1 (W0 m ρ c)) (ix2 (0 : Fin 1) (0 : Fin 1))).trans (Cert.LibLayout.shapeCast_b_1b_apply _ _ (0 : Fin 1))

/-! ## The first kernel's two outputs -/

/-- The first output array is the reference's rectified first-layer convolution. -/
theorem x1_eq : Cert.KernelIdeal.Blocks0.x1 (V1 m ρ) c = Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  funext i
  obtain ⟨n, j, rfl⟩ : ∃ (n : Fin 100000) (j : Fin 128), i = ix2 n j := ⟨i 0, i 1, eq_ix2 i⟩
  rw [Cert.RefValue.x1_at]
  show Cert.KernelIdeal.Blocks0.x1At (V1 m ρ) c n j = _
  unfold Cert.KernelIdeal.Blocks0.x1At
  rw [v1_x, v1_agg, v1_cnt, v1_wl0, v1_wr0, v1_bl0]

/-- The first tree branch, from what the kernel finds, is the reference's. -/
theorem br0_eq (n : Fin 100000) (j : Fin 128) : Cert.KernelIdeal.Blocks0.br0At (V1 m ρ) c n j = Cert.ReferenceIdeal.Read.val_main_v114 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (ix2 n j) := by
  rw [Cert.RefValue.t0_at]
  unfold Cert.KernelIdeal.Blocks0.br0At
  rw [v1_x, v1_aggt0, v1_cntt0, v1_twl0, v1_twr0, v1_tbl0]

/-- The second tree branch likewise. -/
theorem br1_eq (n : Fin 100000) (j : Fin 128) : Cert.KernelIdeal.Blocks0.br1At (V1 m ρ) c n j = Cert.ReferenceIdeal.Read.val_main_v154 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (ix2 n j) := by
  rw [Cert.RefValue.t1_at]
  unfold Cert.KernelIdeal.Blocks0.br1At
  rw [v1_x, v1_aggt1, v1_cntt1, v1_twl1, v1_twr1, v1_tbl1]

/-- The second output array at node n: the reference's two branches mixed by the softmax of their gate scores. -/
theorem xt_eq (n : Fin 100000) (j : Fin 128) : Cert.KernelIdeal.Blocks0.xt (V1 m ρ) c (ix2 n j)
    = gate (Cert.ReferenceIdeal.Read.val_main_v114 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (ix2 n j)) (Cert.ReferenceIdeal.Read.val_main_v154 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (ix2 n j))
        (score (fun k => Cert.ReferenceIdeal.Read.val_main_v114 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (ix2 n k)) (fun k => Cert.ReferenceIdeal.Read.val_main_v156 (F := Ideal) (m ((c : Thread nD τ).loc main_arg9)) (ix2 (0 : Fin 1) k)) (Cert.ReferenceIdeal.Read.val_main_v160 (F := Ideal) (m ((c : Thread nD τ).loc main_arg10)) (ix1 (0 : Fin 1))))
        (score (fun k => Cert.ReferenceIdeal.Read.val_main_v154 (F := Ideal) (m ((c : Thread nD τ).loc main_arg0)) (m ((c : Thread nD τ).loc main_arg2)) (m ((c : Thread nD τ).loc main_arg6)) (m ((c : Thread nD τ).loc main_arg7)) (m ((c : Thread nD τ).loc main_arg8)) (ix2 n k)) (fun k => Cert.ReferenceIdeal.Read.val_main_v165 (F := Ideal) (m ((c : Thread nD τ).loc main_arg9)) (ix2 (0 : Fin 1) k)) (Cert.ReferenceIdeal.Read.val_main_v169 (F := Ideal) (m ((c : Thread nD τ).loc main_arg10)) (ix1 (0 : Fin 1)))) := by
  show Cert.KernelIdeal.Blocks0.xtAt (V1 m ρ) c n j = _
  unfold Cert.KernelIdeal.Blocks0.xtAt
  simp only [br0_eq, br1_eq]
  rw [v1_gw0, v1_gw1, v1_gb0, v1_gb1]

/-! ## What the second kernel finds -/

theorem w2_x1 : W2 m ρ c (Proc.devRef .tc main_v94_0) = Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W2_arr m ρ c 20).trans ((Cert.KernelIdeal.Blocks0.final20 (V1 m ρ) c).trans (x1_eq m ρ c))
theorem w2_xt : W2 m ρ c (Proc.devRef .tc main_v94_1) = Cert.KernelIdeal.Blocks0.xt (V1 m ρ) c :=
  (W2_arr m ρ c 21).trans (Cert.KernelIdeal.Blocks0.final21 (V1 m ρ) c)
theorem w2_src : W2 m ρ c (Proc.devRef .tc main_v1) = Cert.ReferenceIdeal.Read.val_main_v7 (F := Ideal) (m ((c : Thread nD τ).loc main_arg1)) :=
  (W2_of_ne m ρ c main_v1 (by decide)).trans (Cert.KernelIdeal.Host0a.src_main (W0 m ρ c))
theorem w2_dst : W2 m ρ c (Proc.devRef .tc main_v3) = Cert.ReferenceIdeal.Read.val_main_v9 (F := Ideal) (m ((c : Thread nD τ).loc main_arg1)) :=
  (W2_of_ne m ρ c main_v3 (by decide)).trans (Cert.KernelIdeal.Host0a.dst_main (W0 m ρ c))
theorem w2_arg3 : W2 m ρ c (Proc.devRef .tc main_arg3) = (m ((c : Thread nD τ).loc main_arg3)) := (W2_of_ne m ρ c main_arg3 (by decide)).trans (Cert.KernelIdeal.Host0c.arg3 (W0 m ρ c))
theorem w2_arg4 : W2 m ρ c (Proc.devRef .tc main_arg4) = (m ((c : Thread nD τ).loc main_arg4)) := (W2_of_ne m ρ c main_arg4 (by decide)).trans (Cert.KernelIdeal.Host0c.arg4 (W0 m ρ c))
theorem w2_arg5 : W2 m ρ c (Proc.devRef .tc main_arg5) = (m ((c : Thread nD τ).loc main_arg5)) := (W2_of_ne m ρ c main_arg5 (by decide)).trans (Cert.KernelIdeal.Host0c.arg5 (W0 m ρ c))
theorem w2_cnt : W2 m ρ c (Proc.devRef .tc main_v8) = V1 m ρ c main_v8 :=
  (W2_arr m ρ c 2).trans (((dat0 (V1 m ρ) c).arrAt_in 2 rfl _).trans (A_eq0 (V1 m ρ) c 2))

theorem v3_x1 : V3 m ρ c main_v94_0 = Cert.ReferenceIdeal.Read.val_main_v37 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := (Cert.KernelIdeal.Host1.x1 (W2 m ρ c)).trans (w2_x1 m ρ c)
theorem v3_xt : V3 m ρ c main_v94_1 = Cert.KernelIdeal.Blocks0.xt (V1 m ρ) c := (Cert.KernelIdeal.Host1.xt (W2 m ρ c)).trans (w2_xt m ρ c)
/-- The second layer's neighbour sums are the reference's: the same aggregation of the same first-layer output. -/
theorem v3_agg : V3 m ρ c main_v104 = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (Cert.KernelIdeal.Host1.agg_main1 (W2 m ρ c)).trans (by
    rw [w2_x1, w2_src, w2_dst]
    exact (Cert.KernelIdeal.HostDefs.ref_agg_main1 (m ((c : Thread nD τ).loc main_arg0)) (m ((c : Thread nD τ).loc main_arg1)) (m ((c : Thread nD τ).loc main_arg3)) (m ((c : Thread nD τ).loc main_arg5)) (m ((c : Thread nD τ).loc main_arg4))).symm)
/-- The count column the second kernel reads is the one the first read; the reference counts the same edges again. -/
theorem v3_cnt (n : Fin 100000) : V3 m ρ c main_v8 (ix2 n (0 : Fin 1)) = Cert.ReferenceIdeal.Read.val_main_v61 (F := Ideal) (m ((c : Thread nD τ).loc main_arg1)) (ix1 n) :=
  (congrFun ((Cert.KernelIdeal.Host1.cnt (W2 m ρ c)).trans (w2_cnt m ρ c)) (ix2 n (0 : Fin 1))).trans ((v1_cnt m ρ c n).trans
    (congrFun ((Cert.KernelIdeal.HostDefs.ref_cnt_main0 (m ((c : Thread nD τ).loc main_arg1))).trans (Cert.KernelIdeal.HostDefs.ref_cnt_main1 (m ((c : Thread nD τ).loc main_arg1))).symm) (ix1 n)))
theorem v3_wl1 : V3 m ρ c main_v107 = Cert.ReferenceIdeal.Read.val_main_v67 (F := Ideal) (m ((c : Thread nD τ).loc main_arg3)) :=
  (Cert.KernelIdeal.Host1.wl1 (W2 m ρ c)).trans (congrArg (Cert.ReferenceIdeal.Read.val_main_v67 (F := Ideal)) (w2_arg3 m ρ c))
theorem v3_wr1 : V3 m ρ c main_v110 = Cert.ReferenceIdeal.Read.val_main_v72 (F := Ideal) (m ((c : Thread nD τ).loc main_arg5)) :=
  (Cert.KernelIdeal.Host1.wr1 (W2 m ρ c)).trans (congrArg (Cert.ReferenceIdeal.Read.val_main_v72 (F := Ideal)) (w2_arg5 m ρ c))
/-- The second layer's bias row at column j. -/
theorem v3_bl1 : (fun j' : Fin 128 => V3 m ρ c main_v113 (ix2 (0 : Fin 1) j')) = fun j' => Cert.ReferenceIdeal.Read.val_main_v41 (F := Ideal) (m ((c : Thread nD τ).loc main_arg4)) (ix1 j') := by
  funext j'
  have h := congrFun (Cert.KernelIdeal.Host1.bl1 (W2 m ρ c)) (ix2 (0 : Fin 1) j')
  rw [w2_arg4 m ρ c] at h
  exact h.trans (Cert.LibLayout.shapeCast_b_1b_apply _ _ j')

/-! ## The result -/

/-- The result array the idealized kernel ends with is the reference's result stage of the same arguments. -/
theorem result_eq : W4 m ρ c (Proc.devRef .tc main_v114) = Cert.ReferenceIdeal.Read.val_main_v198 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 7).trans ((Cert.KernelIdeal.Blocks1.final (V3 m ρ) c).trans ?_)
  funext i
  obtain ⟨n, j, rfl⟩ : ∃ (n : Fin 100000) (j : Fin 128), i = ix2 n j := ⟨i 0, i 1, eq_ix2 i⟩
  rw [Cert.RefValue.out_at, Cert.RefValue.x2_at]
  show Cert.KernelIdeal.Blocks1.outAt (V3 m ρ) c n j = _
  unfold Cert.KernelIdeal.Blocks1.outAt
  rw [v3_x1, v3_agg, v3_cnt, v3_wl1, v3_wr1, v3_bl1, v3_xt, xt_eq]

end Cert.KernelIdeal.Chain

end
-- ==== Proof.KFinal.lean ====
/-
  The idealized kernel's run, with its result named by the reference's result stage.

  Every weakly fair execution terminates without a fault; the result buffer ends holding the reference's result
  function applied to the launch contents of the arguments, and the arguments end unchanged.
-/
import proofs.«150327_j27470610825587_2_alg».proof.Proof.KRun
import proofs.«150327_j27470610825587_2_alg».proof.Proof.KChain

set_option maxRecDepth 16384

noncomputable section

namespace Cert.KernelIdeal.Final

open Cert.KernelIdeal Cert.KernelIdeal.Gen Idealize.ShloMosaic Idealize.ShloMosaic.TcCoe Idealize.SL.Sem

/-- The run of the idealized kernel, its result at the reference's result stage of the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v114) = Cert.ReferenceIdeal.Read.val_main_v198 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run defs _ _).mono (fun r h c => ⟨(h c).1.trans (Cert.KernelIdeal.Chain.result_eq m ρ c), (h c).2⟩)
    (Cert.KernelIdeal.Whole.run_result (F := Ideal) m ρ)

end Cert.KernelIdeal.Final

end
-- ==== Proof.lean ====
/-
  A two-layer graph convolution network with two gated tree branches, computed by two tiled kernels around plain
  gather and scatter steps, against its plain array reference: equal results over the extended reals.

  Both programs take node features x, a main edge list, two tree edge lists, and the weights of four mean-aggregating
  graph convolutions and of a two-way gate. Each convolution gives node n and feature j
      sum_k (agg n k / max (cnt n) 1) * Wl j k + bl j + sum_k x n k * Wr j k,
  agg the sum of the in-neighbours' features and cnt their number. The first is rectified and fed, with its own
  neighbour sums along the same main edges, to the second; the two tree convolutions of x are rectified and mixed per
  node by the softmax of their gate scores; the result is the second convolution plus the mix.

  The kernel program computes the neighbour sums and counts with the same gather and scatter operations as the
  reference, applied to equal edge lists, and does everything else in two kernels over blocks of 2000 nodes. Over the
  extended reals a change of float format is the identity and a matrix product is a plain sum, so each block entry is
  the formula above of its node's rows; the blocks tile the arrays; the first kernel's output array is therefore the
  reference's first-layer output as an array, its aggregation along the main edges is the reference's, and the second
  kernel's result is the reference's result. No algebraic law beyond the neutrality of the zero, one and minus-infinity
  words is used, so the finiteness of the inputs is not needed for the values.

  The three frames are the generated ones (the reference's is its generated run with the result dropped), and the
  idealized kernel is the kernel's own text read over the extended reals, so there is nothing to preserve.
-/
import proofs.«150327_j27470610825587_2_alg».proof.Defs
import proofs.«150327_j27470610825587_2_alg».proof.Proof.Gen.Kernel
import proofs.«150327_j27470610825587_2_alg».proof.Proof.Gen.Kernel.Frame
import proofs.«150327_j27470610825587_2_alg».proof.Proof.Gen.KernelIdeal
import proofs.«150327_j27470610825587_2_alg».proof.Proof.Gen.KernelIdeal.Frame
import proofs.«150327_j27470610825587_2_alg».proof.Proof.Gen.ReferenceIdeal
import proofs.«150327_j27470610825587_2_alg».proof.Proof.Gen.Pre_finite_inputs
import proofs.«150327_j27470610825587_2_alg».proof.Proof.Gen.ReferenceIdeal.Run
import proofs.«150327_j27470610825587_2_alg».proof.Proof.Gen.ReferenceIdeal.Read
import proofs.«150327_j27470610825587_2_alg».proof.Proof.KFinal
import Idealize.ShloMosaic.Adequacy
import Idealize.ShloMosaic.Init

set_option maxRecDepth 16384

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both idealized programs end with the reference's result function of
    those arguments in their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v198 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v198_eq, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
